-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x1024 : Shape := ⟨3, ![1, 512, 1024]⟩
abbrev S1024x2048 : Shape := ⟨2, ![1024, 2048]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1x512x1024 .f32) (main_arg1 : FVec F S1024x2048 .f32) (main_arg2 : FVec F S1024 .f32) (main_arg3 : FVec F S2x1024 .f32) (main_arg4 : FVec F S2 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_v13 main_v16
-- ==== Kernel.lean ====
abbrev S1x512x1024 : Shape := ⟨3, ![1, 512, 1024]⟩
abbrev S1024x2048 : Shape := ⟨2, ![1024, 2048]⟩
abbrev S1024 : Shape := ⟨1, ![1024]⟩
abbrev S2x1024 : Shape := ⟨2, ![2, 1024]⟩
abbrev S2 : Shape := ⟨1, ![2]⟩
abbrev S512x1024 : Shape := ⟨2, ![512, 1024]⟩
abbrev S1024x1024 : Shape := ⟨2, ![1024, 1024]⟩
abbrev S2048x1024 : Shape := ⟨2, ![2048, 1024]⟩
abbrev S512x2048 : Shape := ⟨2, ![512, 2048]⟩
abbrev S1x1024 : Shape := ⟨2, ![1, 1024]⟩
abbrev S1x2 : Shape := ⟨2, ![1, 2]⟩
abbrev S512x512x2 : Shape := ⟨3, ![512, 512, 2]⟩
abbrev S128x128 : Shape := ⟨2, ![128, 128]⟩
abbrev S1x128 : Shape := ⟨2, ![1, 128]⟩
abbrev S2x128 : Shape := ⟨2, ![2, 128]⟩
abbrev S128x128x2 : Shape := ⟨3, ![128, 128, 2]⟩
abbrev S128 : Shape := ⟨1, ![128]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩
abbrev S16384x128 : Shape := ⟨2, ![16384, 128]⟩
abbrev S128x2 : Shape := ⟨2, ![128, 2]⟩
abbrev S16384x2 : Shape := ⟨2, ![16384, 2]⟩
abbrev S1x1x2 : Shape := ⟨3, ![1, 1, 2]⟩
abbrev S_ : Shape := ⟨0, ![]⟩
abbrev S1x512x512x2 : Shape := ⟨4, ![1, 512, 512, 2]⟩

abbrev nBuf : Space → Nat
  | .hbm => 21
  | .vmem => 15
  | .smem => 0
  | _ => 0

abbrev bufTy : (tb : Table) → Fin (tcTables nBuf tb) → BufTy
  | .hbm, ⟨0, _⟩ => ⟨S1x512x1024, .f32⟩
  | .hbm, ⟨1, _⟩ => ⟨S1024x2048, .f32⟩
  | .hbm, ⟨2, _⟩ => ⟨S1024, .f32⟩
  | .hbm, ⟨3, _⟩ => ⟨S2x1024, .f32⟩
  | .hbm, ⟨4, _⟩ => ⟨S2, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S512x2048, .f32⟩
  | .hbm, ⟨10, _⟩ => ⟨S512x1024, .f32⟩
  | .hbm, ⟨11, _⟩ => ⟨S512x1024, .f32⟩
  | .hbm, ⟨12, _⟩ => ⟨S1x1024, .f32⟩
  | .hbm, ⟨13, _⟩ => ⟨S1x2, .f32⟩
  | .hbm, ⟨14, _⟩ => ⟨S512x512x2, .f32⟩
  | .hbm, ⟨15, _⟩ => ⟨S512x512x2, .f32⟩
  | .hbm, ⟨16, _⟩ => ⟨S512x512x2, .f32⟩
  | .hbm, ⟨17, _⟩ => ⟨S_, .f32⟩
  | .hbm, ⟨18, _⟩ => ⟨S512x512x2, .f32⟩
  | .hbm, ⟨19, _⟩ => ⟨S512x512x2, .f32⟩
  | .hbm, ⟨20, _⟩ => ⟨S1x512x512x2, .f32⟩
  | .local _ .vmem, ⟨0, _⟩ => ⟨S512x1024, .f32⟩
  | .local _ .vmem, ⟨1, _⟩ => ⟨S2048x1024, .f32⟩
  | .local _ .vmem, ⟨2, _⟩ => ⟨S512x2048, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S2x128, .f32⟩
  | .local _ .vmem, ⟨10, _⟩ => ⟨S2x128, .f32⟩
  | .local _ .vmem, ⟨11, _⟩ => ⟨S1x2, .f32⟩
  | .local _ .vmem, ⟨12, _⟩ => ⟨S128x128x2, .f32⟩
  | .local _ .vmem, ⟨13, _⟩ => ⟨S128x128x2, .f32⟩
  | .local _ .vmem, ⟨14, _⟩ => ⟨S128x128x2, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S2x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S128x128x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S1x512x1024_S512x1024 : S1x512x1024.ShapeCasts S512x1024
  slices_S1024x2048_S1024x1024_0_0 : S1024x2048.Slices ![0, 0] S1024x1024
  slices_S1024x2048_S1024x1024_0_1024 : S1024x2048.Slices ![0, 1024] S1024x1024
  concatenates_S1024x1024_S1024x1024_S2048x1024_d0 : Shape.Concatenates [S1024x1024, S1024x1024] S2048x1024 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  inb_S512x2048_S512x2048_0_0 : ∀ a, (![0, 0] : Fin 2 → Nat) a + S512x2048.size a ≤ S512x2048.size a
  h_S512x2048 : 0 < S512x2048.numel
  slices_S512x2048_S512x1024_0_0 : S512x2048.Slices ![0, 0] S512x1024
  slices_S512x2048_S512x1024_0_1024 : S512x2048.Slices ![0, 1024] S512x1024
  shapeCasts_S1024_S1x1024 : S1024.ShapeCasts S1x1024
  shapeCasts_S2_S1x2 : S2.ShapeCasts S1x2
  inb_S128x128x2_S128x128x2_0_0_0 : ∀ a, (![0, 0, 0] : Fin 3 → Nat) a + S128x128x2.size a ≤ S128x128x2.size a
  h_S128x128x2 : 0 < S128x128x2.numel
  shapeCasts_S128x128x2_S128x128x2 : S128x128x2.ShapeCasts S128x128x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  inb_S2x128_S2x128_0_0 : ∀ a, (![0, 0] : Fin 2 → Nat) a + S2x128.size a ≤ S2x128.size a
  h_S2x128 : 0 < S2x128.numel
  shapeCasts_S128x128x128_S16384x128 : S128x128x128.ShapeCasts S16384x128
  transposes_S2x128_p1_0_S128x2 : S2x128.Transposes [1, 0] S128x2
  shapeCasts_S16384x2_S128x128x2 : S16384x2.ShapeCasts S128x128x2
  inb_S1x2_S1x2_0_0 : ∀ a, (![0, 0] : Fin 2 → Nat) a + S1x2.size a ≤ S1x2.size a
  h_S1x2 : 0 < S1x2.numel
  shapeCasts_S1x2_S2 : S1x2.ShapeCasts S2
  shapeCasts_S2_S1x1x2 : S2.ShapeCasts S1x1x2
  broadcasts_S1x1x2_S128x128x2 : S1x1x2.Broadcasts S128x128x2
  transposes_S512x512x2_S512x512x2_1_0_2 : S512x512x2.Transposes [1, 0, 2] S512x512x2
  bcast_S_S512x512x2 : S_.BroadcastsInDim S512x512x2 (![] : Fin 0 → Fin S512x512x2.rank)
  bcast_S512x512x2_S1x512x512x2_1_2_3 : S512x512x2.BroadcastsInDim S1x512x512x2 (![1, 2, 3] : Fin 3 → Fin S1x512x512x2.rank)
  dot_S512x1024_S1024x2048_S512x2048_1_0_0_1_n_n_wf : DotDims.WF S512x1024 S1024x2048 S512x2048 [1] [0] [0] [1] [] []
  dot_S16384x128_S128x2_S16384x2_1_0_0_1_n_n_wf : DotDims.WF S16384x128 S128x2 S16384x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .f32 = 32 ∨ (Rect.block (s := S512x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x1024.size a
  hwx1_0 : ∀ i : grid1.Coords, EltTy.bits .f32 = 32 ∨ (Rect.block (s := S512x1024) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x1024.size a
  hwx1_1 : ∀ i : grid1.Coords, EltTy.bits .f32 = 32 ∨ (Rect.block (s := S512x1024) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x1024.size a
  hwx1_2 : ∀ i : grid1.Coords, EltTy.bits .f32 = 32 ∨ (Rect.block (s := S1x1024) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x1024.size a
  hwx1_3 : ∀ i : grid1.Coords, EltTy.bits .f32 = 32 ∨ (Rect.block (s := S2x1024) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x128x2.size a ≤ S512x512x2.size a
  hwx1_5 : ∀ i : grid1.Coords, EltTy.bits .f32 = 32 ∨ (Rect.block (s := S512x512x2) S128x128x2.size (cc1_transform_5 i) (hinb1_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

abbrev win0_0 : Pipeline.Window sig grid0 :=
  Pipeline.Window.ofSpec (Memref.whole main_v0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S128x128x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1x512x1024 : Shape := ⟨3, ![1, 512, 1024]⟩
abbrev S1024x2048 : Shape := ⟨2, ![1024, 2048]⟩
abbrev S1024 : Shape := ⟨1, ![1024]⟩
abbrev S2x1024 : Shape := ⟨2, ![2, 1024]⟩
abbrev S2 : Shape := ⟨1, ![2]⟩
abbrev S1024x1024 : Shape := ⟨2, ![1024, 1024]⟩
abbrev S1x1x512x1024 : Shape := ⟨4, ![1, 1, 512, 1024]⟩
abbrev S1x512x1x1024 : Shape := ⟨4, ![1, 512, 1, 1024]⟩
abbrev S1x512x512x1024 : Shape := ⟨4, ![1, 512, 512, 1024]⟩
abbrev S1x1x1x1024 : Shape := ⟨4, ![1, 1, 1, 1024]⟩
abbrev S1x512x512x2 : Shape := ⟨4, ![1, 512, 512, 2]⟩
abbrev S1x1x1x2 : Shape := ⟨4, ![1, 1, 1, 2]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x2048, .f32⟩
  | .hbm, ⟨2, _⟩ => ⟨S1024, .f32⟩
  | .hbm, ⟨3, _⟩ => ⟨S2x1024, .f32⟩
  | .hbm, ⟨4, _⟩ => ⟨S2, .f32⟩
  | .hbm, ⟨5, _⟩ => ⟨S1024x1024, .f32⟩
  | .hbm, ⟨6, _⟩ => ⟨S1024x1024, .f32⟩
  | .hbm, ⟨7, _⟩ => ⟨S1x512x1024, .f32⟩
  | .hbm, ⟨8, _⟩ => ⟨S1x512x1024, .f32⟩
  | .hbm, ⟨9, _⟩ => ⟨S1x1x512x1024, .f32⟩
  | .hbm, ⟨10, _⟩ => ⟨S1x512x1x1024, .f32⟩
  | .hbm, ⟨11, _⟩ => ⟨S1x512x512x1024, .f32⟩
  | .hbm, ⟨12, _⟩ => ⟨S1x512x512x1024, .f32⟩
  | .hbm, ⟨13, _⟩ => ⟨S1x512x512x1024, .f32⟩
  | .hbm, ⟨14, _⟩ => ⟨S1x1x1x1024, .f32⟩
  | .hbm, ⟨15, _⟩ => ⟨S1x512x512x1024, .f32⟩
  | .hbm, ⟨16, _⟩ => ⟨S1x512x512x1024, .f32⟩
  | .hbm, ⟨17, _⟩ => ⟨S1x512x512x1024, .f32⟩
  | .hbm, ⟨18, _⟩ => ⟨S1x512x512x2, .f32⟩
  | .hbm, ⟨19, _⟩ => ⟨S1x1x1x2, .f32⟩
  | .hbm, ⟨20, _⟩ => ⟨S1x512x512x2, .f32⟩
  | .hbm, ⟨21, _⟩ => ⟨S1x512x512x2, .f32⟩
  | .hbm, ⟨22, _⟩ => ⟨S1x512x512x2, .f32⟩
  | .hbm, ⟨23, _⟩ => ⟨S1x512x512x2, .f32⟩
  | .hbm, ⟨24, _⟩ => ⟨S_, .f32⟩
  | .hbm, ⟨25, _⟩ => ⟨S1x512x512x2, .f32⟩
  | .hbm, ⟨26, _⟩ => ⟨S1x512x512x2, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  slices_S1024x2048_S1024x1024_0_0 : S1024x2048.Slices ![0, 0] S1024x1024
  slices_S1024x2048_S1024x1024_0_1024 : S1024x2048.Slices ![0, 1024] S1024x1024
  bcast_S1x512x1024_S1x1x512x1024_0_2_3 : S1x512x1024.BroadcastsInDim S1x1x512x1024 (![0, 2, 3] : Fin 3 → Fin S1x1x512x1024.rank)
  bcast_S1x512x1024_S1x512x1x1024_0_1_3 : S1x512x1024.BroadcastsInDim S1x512x1x1024 (![0, 1, 3] : Fin 3 → Fin S1x512x1x1024.rank)
  bcast_S1x1x512x1024_S1x512x512x1024_0_1_2_3 : S1x1x512x1024.BroadcastsInDim S1x512x512x1024 (![0, 1, 2, 3] : Fin 4 → Fin S1x512x512x1024.rank)
  bcast_S1x512x1x1024_S1x512x512x1024_0_1_2_3 : S1x512x1x1024.BroadcastsInDim S1x512x512x1024 (![0, 1, 2, 3] : Fin 4 → Fin S1x512x512x1024.rank)
  bcast_S1024_S1x1x1x1024_3 : S1024.BroadcastsInDim S1x1x1x1024 (![3] : Fin 1 → Fin S1x1x1x1024.rank)
  bcast_S1x1x1x1024_S1x512x512x1024_0_1_2_3 : S1x1x1x1024.BroadcastsInDim S1x512x512x1024 (![0, 1, 2, 3] : Fin 4 → Fin S1x512x512x1024.rank)
  bcast_S2_S1x1x1x2_3 : S2.BroadcastsInDim S1x1x1x2 (![3] : Fin 1 → Fin S1x1x1x2.rank)
  bcast_S1x1x1x2_S1x512x512x2_0_1_2_3 : S1x1x1x2.BroadcastsInDim S1x512x512x2 (![0, 1, 2, 3] : Fin 4 → Fin S1x512x512x2.rank)
  transposes_S1x512x512x2_S1x512x512x2_0_2_1_3 : S1x512x512x2.Transposes [0, 2, 1, 3] S1x512x512x2
  bcast_S_S1x512x512x2 : S_.BroadcastsInDim S1x512x512x2 (![] : Fin 0 → Fin S1x512x512x2.rank)
  dot_S1x512x1024_S1024x1024_S1x512x1024_2_1_01_0_n_n_wf : DotDims.WF S1x512x1024 S1024x1024 S1x512x1024 [2] [1] [0, 1] [0] [] []
  dot_S1x512x512x1024_S2x1024_S1x512x512x2_3_1_012_0_n_n_wf : DotDims.WF S1x512x512x1024 S2x1024 S1x512x512x2 [3] [1] [0, 1, 2] [0] [] []

variable [Facts₀]

def dot_S1x512x1024_S1024x1024_S1x512x1024_2_1_01_0_n_n : DotDims S1x512x1024 S1024x1024 S1x512x1024 where
  lhsContracting := [2]
  rhsContracting := [1]
  lhsNonContracting := [0, 1]
  rhsNonContracting := [0]
  lhsBatch := []
  rhsBatch := []
  wf := dot_S1x512x1024_S1024x1024_S1x512x1024_2_1_01_0_n_n_wf
def dot_S1x512x512x1024_S2x1024_S1x512x512x2_3_1_012_0_n_n : DotDims S1x512x512x1024 S2x1024 S1x512x512x2 where
  lhsContracting := [3]
  rhsContracting := [1]
  lhsNonContracting := [0, 1, 2]
  rhsNonContracting := [0]
  lhsBatch := []
  rhsBatch := []
  wf := dot_S1x512x512x1024_S2x1024_S1x512x512x2_3_1_012_0_n_n_wf

class Facts : Prop extends Facts₀ where

variable [Facts]
-- ==== Proof.K.Region0.lean ====
/-
  The first kernel region (the projection matmul, one grid point) stated at a parameter `V`: the contents of the
  TensorCore's buffers when the region is entered. Its three windows are whole arrays: the activations [512,1024],
  the stacked weights [2048,1024] and the product [512,2048]. The body loads the two inputs, forms the product
  payload and stores it over the whole output block, so after the body the output's staging buffer holds that
  payload of the two input blocks; the inputs' buffers keep their blocks. No scratch, nothing owed.
-/
import proofs.«166932_j51814485459081_1_alg».proof.Proof.Gen.Kernel.Launch
import proofs.«166932_j51814485459081_1_alg».proof.Proof.Gen.Kernel.Skeleton
import proofs.«166932_j51814485459081_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles of the three staging buffers. -/
abbrev r0_0 : Rect S512x1024 := Rect.unit (s := S512x1024) ![0, 0] S512x1024.size inb_S512x1024_S512x1024_0_0
abbrev r0_1 : Rect S2048x1024 := Rect.unit (s := S2048x1024) ![0, 0] S2048x1024.size inb_S2048x1024_S2048x1024_0_0
abbrev r0_2 : Rect S512x2048 := Rect.unit (s := S512x2048) ![0, 0] S512x2048.size inb_S512x2048_S512x2048_0_0

/-- The product block after the body: its one store, of the product payload of the two loaded input blocks. -/
def out0_2 (x0 : Vec F S512x1024 .f32) (x1 : Vec F S2048x1024 .f32) : Vec F S512x2048 .f32 :=
  View.canon [⟨r0_2, k0_pay1 (View.ld x0 r0_0) (View.ld x1 r0_1)⟩]

/-- The one store covers the block. -/
theorem cover0_2 (p0 : Vec F S512x2048 .f32) (y : S512x2048.Idx) :
    ∃ pc ∈ ([⟨r0_2, p0⟩] : List (View.Piece (Elt F) S512x2048 .f32)), y ∈ pc.1.set :=
  View.cover_of_tiled [⟨r0_2, p0⟩] S512x2048.size (by rfl) y

set_option maxHeartbeats 1000000 in
/-- The body on whole staging memrefs: the inputs at contents `x0`, `x1`, the output at anything; it ends with the
    inputs as they were and the output at `out0_2 x0 x1`. -/
theorem sound_kernel0 (c : Dev nD) (E : Set ℕ) (i : grid0.Coords) (arg2 : Memref sig .tc .vmem S512x1024 .f32) (harg2 : arg2.IsWhole)
    (arg3 : Memref sig .tc .vmem S2048x1024 .f32) (harg3 : arg3.IsWhole) (arg4 : Memref sig .tc .vmem S512x2048 .f32) (harg4 : arg4.IsWhole)
    (x0 : Vec F S512x1024 .f32) (x1 : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each
    input's buffer at its block and the output's at the product of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Shared.lean ====
/-
  What the three control cases of the second kernel region (the pairwise contraction, grid 4 x 4 x 8) share. The
  body resets its scratch accumulator when the innermost coordinate is 0, adds one tile's contraction to it at every
  point, and stores accumulator plus bias into the output block when the innermost coordinate is 7. So a point is
  in one of three cases, decided by its position modulo 8; the output window is idle and not written back except in
  the last case. The region's invariant holds the scratch accumulator among the scoped buffers no window stages.
-/
import proofs.«166932_j51814485459081_1_alg».proof.Proof.Gen.Kernel.Launch
import proofs.«166932_j51814485459081_1_alg».proof.Proof.Gen.Kernel.Skeleton
import proofs.«166932_j51814485459081_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset: the innermost grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output block is stored: the innermost grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, exactly where the body does
    not store into it. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S128x128x2 .f32 := (Memref.whole cc1_stg5_0 : Memref sig .tc .vmem S128x128x2 .f32).view
/-- Each window's current staging memref at point `t`, as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128x2 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, carried between points. -/
abbrev scM1_0 : Memref sig .tc .vmem S128x128x2 .f32 := Memref.whole cc1_scratch0
abbrev VS1_0 : View sig .tc .vmem S128x128x2 .f32 := scM1_0.view

/-- The class invariant of the second region spelt out: the first region's three staging buffers at some contents,
    the scratch accumulator owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Region1RunA.lean ====
/-
  The body of the pairwise kernel in the case where the accumulator is reset and one tile added; nothing is stored into the output block: the pieces each buffer ends with, found by running the
  body symbolically, with the proof that the body run from the inputs' blocks leaves exactly those pieces written.
-/
import proofs.«166932_j51814485459081_1_alg».proof.Proof.K.Region1Shared

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`.1`) and in the scratch accumulator (`.2.1`), last store
    first, with the body's triple on whole staging memrefs. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) :
    Σ' (L5 : List (View.Piece (Elt F) S128x128x2 .f32)), { LS0 : List (View.Piece (Elt F) S128x128x2 .f32) //
      ∀ (xi5 : Vec F S128x128x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_kernel i arg3 harg3 arg4 harg4 arg5 harg5 arg6 harg6 arg7 harg7 arg8 harg8 arg9 harg9) K } := by
  refine ⟨[], ?_, fun xi5 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.K.Region1RunB.lean ====
/-
  The body of the pairwise kernel in the case where one tile is added onto the accumulator the point before left; nothing is stored into the output block: the pieces each buffer ends with, found by running the
  body symbolically, with the proof that the body run from the inputs' blocks leaves exactly those pieces written.
-/
import proofs.«166932_j51814485459081_1_alg».proof.Proof.K.Region1Shared

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`.1`) and in the scratch accumulator (`.2.1`), last store
    first, with the body's triple on whole staging memrefs. -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) :
    Σ' (L5 : List (View.Piece (Elt F) S128x128x2 .f32)), { LS0 : List (View.Piece (Elt F) S128x128x2 .f32) //
      ∀ (xi5 : Vec F S128x128x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_kernel i arg3 harg3 arg4 harg4 arg5 harg5 arg6 harg6 arg7 harg7 arg8 harg8 arg9 harg9) K } := by
  refine ⟨[], ?_, fun xi5 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.K.Region1RunC.lean ====
/-
  The body of the pairwise kernel in the case where one tile is added onto the accumulator the point before left, and accumulator plus bias is stored over the output block: the pieces each buffer ends with, found by running the
  body symbolically, with the proof that the body run from the inputs' blocks leaves exactly those pieces written.
-/
import proofs.«166932_j51814485459081_1_alg».proof.Proof.K.Region1Shared

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`.1`) and in the scratch accumulator (`.2.1`), last store
    first, with the body's triple on whole staging memrefs. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) :
    Σ' (L5 : List (View.Piece (Elt F) S128x128x2 .f32)), { LS0 : List (View.Piece (Elt F) S128x128x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_kernel i arg3 harg3 arg4 harg4 arg5 harg5 arg6 harg6 arg7 harg7 arg8 harg8 arg9 harg9) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.K.Region1Frame.lean ====
/-
  The second kernel region (the pairwise contraction) stated at a parameter `V`, the buffers' contents when the
  region is entered. What the output block and the scratch accumulator hold after each grid point is defined by
  recursion on the point: a point whose innermost coordinate is 0 starts the accumulator afresh; every other point
  adds to what the point before left; a point whose innermost coordinate is 7 also stores the output block. The
  region's invariant carries the accumulator at exactly these contents from point to point, beside the other scoped
  buffers and the generator register; the body obligation is then one case split on the position modulo 8.
-/
import proofs.«166932_j51814485459081_1_alg».proof.Proof.K.Region1RunA
import proofs.«166932_j51814485459081_1_alg».proof.Proof.K.Region1RunB
import proofs.«166932_j51814485459081_1_alg».proof.Proof.K.Region1RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- This case stores nothing into the output block (the window is idle and not written back): a placeholder nothing consults. -/
def out1_A_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S128x128x2 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)
/-- The pieces this case leaves in the scratch accumulator cover it (one whole-block store is the last). -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) (y : S128x128x2.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S128x128x2.size (by sl_kernel_rfl) y
/-- What this case leaves in the scratch accumulator: its pieces read back. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S128x128x2 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- This case stores nothing into the output block (the window is idle and not written back): a placeholder nothing consults. -/
def out1_B_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)
/-- The pieces this case leaves in the scratch accumulator cover it (one whole-block store is the last). -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) (y : S128x128x2.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S128x128x2.size (by sl_kernel_rfl) y
/-- What this case leaves in the scratch accumulator: its pieces read back. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- What the last case leaves in the output block: its pieces read back. -/
def out1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
theorem cover1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) (y : S128x128x2.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S128x128x2.size (by sl_kernel_rfl) y
/-- The pieces this case leaves in the scratch accumulator cover it (one whole-block store is the last). -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) (y : S128x128x2.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S128x128x2.size (by sl_kernel_rfl) y
/-- What this case leaves in the scratch accumulator: its pieces read back. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-- The output block and the accumulator after a point that resets the accumulator, -/
def ptA (c : Dev nD) (t : Fin cfg1.N) (h0 : t.val % 8 = 0) (h1 : ¬t.val % 8 = 7) : Vec F S128x128x2 .f32 × Vec F S128x128x2 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
/-- after a point that only accumulates onto `xs0`, -/
def ptB (c : Dev nD) (t : Fin cfg1.N) (h0 : ¬t.val % 8 = 0) (h1 : ¬t.val % 8 = 7) (xs0 : Vec F S128x128x2 .f32) : Vec F S128x128x2 .f32 × Vec F S128x128x2 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0)
/-- and after a point that accumulates onto `xs0` and stores the output block. -/
def ptC (c : Dev nD) (t : Fin cfg1.N) (h0 : ¬t.val % 8 = 0) (h1 : t.val % 8 = 7) (xs0 : Vec F S128x128x2 .f32) : Vec F S128x128x2 .f32 × Vec F S128x128x2 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0)

/-- THE ACCUMULATION: what the output's staging buffer and the scratch accumulator hold after the body at
    position `n` (first component the output block, second the accumulator). -/
def outsAt1 (c : Dev nD) : (n : ℕ) → n < cfg1.N → Vec F S128x128x2 .f32 × Vec F S128x128x2 .f32
  | 0, hn => ptA V c ⟨0, hn⟩ (Nat.zero_mod _) (fun h => absurd (show 0 % 8 = 7 from h) (by decide))
  | n + 1, hn =>
    if h0 : (n + 1) % 8 = 0 then ptA V c ⟨n + 1, hn⟩ h0 (fun h => by have h' : (n + 1) % 8 = 7 := h; omega)
    else if h1 : (n + 1) % 8 = 7 then ptC V c ⟨n + 1, hn⟩ h0 h1 (outsAt1 c n (Nat.lt_of_succ_lt hn)).2
    else ptB V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact dif_pos h0
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region invariant before position `n`: before the first point every scoped buffer no window stages at
    anything and the generator register at some state; afterwards the same with the scratch accumulator at what the
    point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of the second pipeline on core `c`: the arrays as the region finds them; after the body each
    input's buffer at its block and the output's at the accumulation's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the position modulo 8 says which case the point
    is in; the invariant hands the body the accumulator at what the point before left (at anything before the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => h1 ((hcond1_1 t).mp h))) (noFlush1_5 t (fun h => h1 ((hcond1_1 t).mp h)))]
    rw [outsAt1_A V c t h0 h1]
    unfold ptA sout1_A_0; (try dsimp only)
    by_cases hz : t.val = 0
    · rw [PhiS_castSucc V c t, PhiS_zero V c _ _ hz, PhiA1_eq]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold ptC out1_C_5 sout1_C_0; (try dsimp only)
      rw [PhiS_castSucc V c t, PhiS_pos V c _ _ hz]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold ptB sout1_B_0; (try dsimp only)
      rw [PhiS_castSucc V c t, PhiS_pos V c _ _ hz]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hr0, Hr1, Hr2, HS0⟩, Hg⟩
  isplitl [Hr0 Hr1 Hr2 HS0]
  · isplitl [Hr0]; · iexact Hr0
    isplitl [Hr1]; · iexact Hr1
    isplitl [Hr2]; · iexact Hr2
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.MainRun.lean ====
/-
  The whole program as five segments — host operations, the projection region, host operations, the pairwise region,
  host operations — run from the launch to the return. The buffers' contents at each boundary are a fold from the
  launch memory: a host stretch applies its operations; a region replaces its windows' arrays by what its write-backs
  leave and keeps every other buffer. The run ends with every unscoped buffer at the last boundary's contents.
-/
import proofs.«166932_j51814485459081_1_alg».proof.Proof.K.Region0
import proofs.«166932_j51814485459081_1_alg».proof.Proof.K.Region1Frame

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, -/
abbrev W0 : Dev nD → Valuation τ sig (Elt F) := fun c b => m (c, b)
/-- after the first host stretch (the projection region's entry), -/
abbrev W1 : Dev nD → Valuation τ sig (Elt F) := fun c => StableHlo.after hostOps0 (W0 m c)
abbrev VR0 : (c : Dev nD) → (b : Ref sig .tc) → Buf (Elt F) ((c : Thread nD τ).loc b) := fun c b => W1 m c b
/-- at the projection region's exit: its arrays at what the pipeline leaves, every other buffer as entered, -/
def W2 (c : Dev nD) : Valuation τ sig (Elt F) :=
  Pipeline.withArrays spec0 c (W1 m c) fun w => (dat0 (VR0 m) c).arrAt w cfg0.N
theorem W2_arr (c : Dev nD) (w : Fin cfg0.W) :
    W2 m c (Proc.devRef .tc (Pipeline.arrRef spec0 w)) = (dat0 (VR0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VX0 : (c : Dev nD) → (b : Ref sig .tc) → Buf (Elt F) ((c : Thread nD τ).loc b) := fun c b => W2 m c b
theorem hF0 (c : Dev nD) (w : Fin cfg0.W) : (dat0 (VR0 m) c).arrAt w cfg0.N = VX0 m c (Pipeline.arrRef spec0 w) :=
  (W2_arr m c w).symm
theorem hrest0 (c : Dev nD) : ∀ b, b ∉ Finset.univ.image (Pipeline.arrRef spec0) → VX0 m c b = VR0 m c b :=
  fun b hb => W2_of_ne m c b fun w e => hb (Finset.mem_image.mpr ⟨w, Finset.mem_univ _, e⟩)
/-- after the second host stretch (the pairwise region's entry), -/
abbrev W3 : Dev nD → Valuation τ sig (Elt F) := fun c => StableHlo.after hostOps1 (W2 m c)
abbrev VR1 : (c : Dev nD) → (b : Ref sig .tc) → Buf (Elt F) ((c : Thread nD τ).loc b) := fun c b => W3 m c b
/-- at the pairwise region's exit, -/
def W4 (c : Dev nD) : Valuation τ sig (Elt F) :=
  Pipeline.withArrays spec1 c (W3 m c) fun w => (dat1 (VR1 m) c).arrAt w cfg1.N
theorem W4_arr (c : Dev nD) (w : Fin cfg1.W) :
    W4 m c (Proc.devRef .tc (Pipeline.arrRef spec1 w)) = (dat1 (VR1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VX1 : (c : Dev nD) → (b : Ref sig .tc) → Buf (Elt F) ((c : Thread nD τ).loc b) := fun c b => W4 m c b
theorem hF1 (c : Dev nD) (w : Fin cfg1.W) : (dat1 (VR1 m) c).arrAt w cfg1.N = VX1 m c (Pipeline.arrRef spec1 w) :=
  (W4_arr m c w).symm
theorem hrest1 (c : Dev nD) : ∀ b, b ∉ Finset.univ.image (Pipeline.arrRef spec1) → VX1 m c b = VR1 m c b :=
  fun b hb => W4_of_ne m c b fun w e => hb (Finset.mem_image.mpr ⟨w, Finset.mem_univ _, e⟩)
/-- and after the last host stretch (the return). -/
abbrev W5 : Dev nD → Valuation τ sig (Elt F) := fun c => StableHlo.after hostOps2 (W4 m c)

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (VR0 m) c
  | ⟨1, _⟩ => fun c => dat1 (VR1 m) c
abbrev 𝒱₀ : Variants := Variants.none
abbrev L₀ : GSem nD τ sig → Finset Unit := fun _ => ∅
abbrev lv₀ : GSem nD τ sig → Unit → ℕ := fun _ _ => 0
/-- What rides beside the buffers through every segment: the generator register at some state and the core owing nothing. -/
abbrev R₀ (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R₀

theorem hostOps0_fr : (hostOps0 : List (HloOp τ sig (Elt F))).Forall fun op => op.fresh = ∅ := by
  simp only [List.Forall]; repeat' constructor
theorem hostOps1_fr : (hostOps1 : List (HloOp τ sig (Elt F))).Forall fun op => op.fresh = ∅ := by
  simp only [List.Forall]; repeat' constructor
theorem hostOps2_fr : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at `W1`, left with them at `W2`.
    Its arrays are split out of the unscoped buffers and put back at the contents the pipeline leaves; the generator
    register goes into the region's invariant and comes back; nothing is owed; the kernel has no semaphore of its own. -/
def reg0 : Pipeline.RegionSeg (pcfgs (F := F)) padm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L₀ lv₀ 0 fun _ _ => rfl
  pre c := iprop(StableHlo.held (c : Thread nD τ) (Pipeline.ucRefs τ sig) (W1 m c) ∗ R₀ c)
  post c := iprop(StableHlo.held (c : Thread nD τ) (Pipeline.ucRefs τ sig) (W2 m c) ∗ R₀ c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`.
    Its arrays are split out of the unscoped buffers and put back at the contents the pipeline leaves; the generator
    register goes into the region's invariant and comes back; nothing is owed; the kernel has no semaphore of its own. -/
def reg1 : Pipeline.RegionSeg (pcfgs (F := F)) padm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L₀ lv₀ 1 fun _ _ => rfl
  pre c := iprop(StableHlo.held (c : Thread nD τ) (Pipeline.ucRefs τ sig) (W3 m c) ∗ R₀ c)
  post c := iprop(StableHlo.held (c : Thread nD τ) (Pipeline.ucRefs τ sig) (W4 m c) ∗ R₀ c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    rw [Pipeline.ownSems0_none]
    refine BIBase.Entails.trans (hout1 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev hsegs : List (Pipeline.Seg (pcfgs (F := F)) padm (pdats m) () defs₀ 𝒱₀ L₀ lv₀) :=
  [ .host (hseg hostOps0 hostOps0_sub hostOps0_fr (W0 m)),
    .region (reg0 m),
    .host (hseg hostOps1 hostOps1_sub hostOps1_fr (W2 m)),
    .region (reg1 m),
    .host (hseg hostOps2 hostOps2_sub hostOps2_fr (W4 m)) ]
theorem main_run (c : Dev nD) : main (F := F) c = Pipeline.Seg.run (hsegs m) := (main_chain c).trans (by chain_rfl)

set_option backward.isDefEq.respectTransparency.types false in
/-- THE RUN: from any memory with zero counters every weakly fair execution of the program terminates, nothing
    faulting, and every final state has every unscoped buffer at the last boundary's contents `W5`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) padm (pdats m) () cellOf_inj emb₁ defs₀ 𝒱₀ L₀ lv₀ m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R₀ c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.Hand

end
-- ==== Proof.K.ArgsKept.lean ====
/-
  The program's five arguments end as they were launched.

  No host operation writes an argument's buffer: each writes its own result. The projection region's arrays are three
  intermediate buffers, so it keeps every argument. The pairwise region's arrays are five intermediate buffers and the
  output weights, which it reads through an input window; an input window never flushes, so its array stays as the
  region found it. Hence the fold of the five segments, read at an argument's buffer, walks back to the launch memory,
  and the run, which ends with every unscoped buffer at the last boundary's contents, ends with the arguments unchanged.
-/
import proofs.«166932_j51814485459081_1_alg».proof.Proof.K.MainRun

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A host stretch keeps every buffer that is none of its results -/

/-- The first host stretch writes `main_v0` … `main_v3` only. -/
theorem hostOps0_keeps (V : Valuation τ sig (Elt F)) (b : Ref sig .tc)
    (h0 : b ≠ main_v0) (h1 : b ≠ main_v1) (h2 : b ≠ main_v2) (h3 : b ≠ main_v3) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.unary_writes, StableHlo.binary_writes, StableHlo.reshape_writes,
      Finset.mem_singleton]
    exact ⟨StableHlo.devRef_ne_of_ne h0, StableHlo.devRef_ne_of_ne h1, StableHlo.devRef_ne_of_ne h2,
      StableHlo.devRef_ne_of_ne h3⟩))

/-- The second host stretch writes `main_v5` … `main_v8` only. -/
theorem hostOps1_keeps (V : Valuation τ sig (Elt F)) (b : Ref sig .tc)
    (h5 : b ≠ main_v5) (h6 : b ≠ main_v6) (h7 : b ≠ main_v7) (h8 : b ≠ main_v8) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.unary_writes, StableHlo.binary_writes, StableHlo.reshape_writes,
      Finset.mem_singleton]
    exact ⟨StableHlo.devRef_ne_of_ne h5, StableHlo.devRef_ne_of_ne h6, StableHlo.devRef_ne_of_ne h7,
      StableHlo.devRef_ne_of_ne h8⟩))

/-- The last host stretch writes `main_v10`, `main_v11`, `main_cst`, `main_v12`, `main_v13`, `main_v14` only. -/
theorem hostOps2_keeps (V : Valuation τ sig (Elt F)) (b : Ref sig .tc)
    (h10 : b ≠ main_v10) (h11 : b ≠ main_v11) (hc : b ≠ main_cst) (h12 : b ≠ main_v12) (h13 : b ≠ main_v13)
    (h14 : b ≠ main_v14) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.reshape_writes, Finset.mem_singleton]
    exact ⟨StableHlo.devRef_ne_of_ne h10, StableHlo.devRef_ne_of_ne h11, StableHlo.devRef_ne_of_ne hc,
      StableHlo.devRef_ne_of_ne h12, StableHlo.devRef_ne_of_ne h13, StableHlo.devRef_ne_of_ne h14⟩))

variable (m : (ℓ : Loc nD τ sig) → Buf (Elt F) ℓ)

/-! ## Each argument, boundary by boundary -/

theorem W5_main_arg0 (c : Dev nD) : W5 m c (Proc.devRef .tc main_arg0) = m ((c : Thread nD τ).loc main_arg0) :=
  calc W5 m c (Proc.devRef .tc main_arg0)
    _ = W4 m c (Proc.devRef .tc main_arg0) :=
        hostOps2_keeps _ main_arg0 (by decide) (by decide) (by decide) (by decide) (by decide) (by decide)
    _ = W3 m c (Proc.devRef .tc main_arg0) := W4_of_ne m c main_arg0 (by decide)
    _ = W2 m c (Proc.devRef .tc main_arg0) := hostOps1_keeps _ main_arg0 (by decide) (by decide) (by decide) (by decide)
    _ = W1 m c (Proc.devRef .tc main_arg0) := W2_of_ne m c main_arg0 (by decide)
    _ = W0 m c (Proc.devRef .tc main_arg0) := hostOps0_keeps _ main_arg0 (by decide) (by decide) (by decide) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) :=
        hostOps2_keeps _ main_arg1 (by decide) (by decide) (by decide) (by decide) (by decide) (by decide)
    _ = W3 m c (Proc.devRef .tc main_arg1) := W4_of_ne m c main_arg1 (by decide)
    _ = W2 m c (Proc.devRef .tc main_arg1) := hostOps1_keeps _ main_arg1 (by decide) (by decide) (by decide) (by decide)
    _ = W1 m c (Proc.devRef .tc main_arg1) := W2_of_ne m c main_arg1 (by decide)
    _ = W0 m c (Proc.devRef .tc main_arg1) := hostOps0_keeps _ main_arg1 (by decide) (by decide) (by decide) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) :=
        hostOps2_keeps _ main_arg2 (by decide) (by decide) (by decide) (by decide) (by decide) (by decide)
    _ = W3 m c (Proc.devRef .tc main_arg2) := W4_of_ne m c main_arg2 (by decide)
    _ = W2 m c (Proc.devRef .tc main_arg2) := hostOps1_keeps _ main_arg2 (by decide) (by decide) (by decide) (by decide)
    _ = W1 m c (Proc.devRef .tc main_arg2) := W2_of_ne m c main_arg2 (by decide)
    _ = W0 m c (Proc.devRef .tc main_arg2) := hostOps0_keeps _ main_arg2 (by decide) (by decide) (by decide) (by decide)
    _ = m ((c : Thread nD τ).loc main_arg2) := rfl

/-- The output weights are input window 3 of the pairwise region: its array is never flushed. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) :=
        hostOps2_keeps _ main_arg3 (by decide) (by decide) (by decide) (by decide) (by decide) (by decide)
    _ = W3 m c (Proc.devRef .tc main_arg3) :=
        (W4_arr m c 3).trans (((dat1 (VR1 m) c).arrAt_in 3 rfl _).trans (A_eq1 (VR1 m) c 3))
    _ = W2 m c (Proc.devRef .tc main_arg3) := hostOps1_keeps _ main_arg3 (by decide) (by decide) (by decide) (by decide)
    _ = W1 m c (Proc.devRef .tc main_arg3) := W2_of_ne m c main_arg3 (by decide)
    _ = W0 m c (Proc.devRef .tc main_arg3) := hostOps0_keeps _ main_arg3 (by decide) (by decide) (by decide) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) :=
        hostOps2_keeps _ main_arg4 (by decide) (by decide) (by decide) (by decide) (by decide) (by decide)
    _ = W3 m c (Proc.devRef .tc main_arg4) := W4_of_ne m c main_arg4 (by decide)
    _ = W2 m c (Proc.devRef .tc main_arg4) := hostOps1_keeps _ main_arg4 (by decide) (by decide) (by decide) (by decide)
    _ = W1 m c (Proc.devRef .tc main_arg4) := W2_of_ne m c main_arg4 (by decide)
    _ = W0 m c (Proc.devRef .tc main_arg4) := hostOps0_keeps _ main_arg4 (by decide) (by decide) (by decide) (by decide)
    _ = m ((c : Thread nD τ).loc main_arg4) := rfl

/-! ## The frame claim -/

/-- From any memory with zero counters every weakly fair execution of the program terminates, nothing faulting, and
    every final state has the five arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

end Cert.Kernel.Hand

end
-- ==== Proof.KI.Region0.lean ====
/-
  The first kernel region (the projection matmul, one grid point) stated at a parameter `V`: the contents of the
  TensorCore's buffers when the region is entered. Its three windows are whole arrays: the activations [512,1024],
  the stacked weights [2048,1024] and the product [512,2048]. The body loads the two inputs, forms the product
  payload and stores it over the whole output block, so after the body the output's staging buffer holds that
  payload of the two input blocks; the inputs' buffers keep their blocks. No scratch, nothing owed.
-/
import proofs.«166932_j51814485459081_1_alg».proof.Proof.Gen.KernelIdeal.Launch
import proofs.«166932_j51814485459081_1_alg».proof.Proof.Gen.KernelIdeal.Skeleton
import proofs.«166932_j51814485459081_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles of the three staging buffers. -/
abbrev r0_0 : Rect S512x1024 := Rect.unit (s := S512x1024) ![0, 0] S512x1024.size inb_S512x1024_S512x1024_0_0
abbrev r0_1 : Rect S2048x1024 := Rect.unit (s := S2048x1024) ![0, 0] S2048x1024.size inb_S2048x1024_S2048x1024_0_0
abbrev r0_2 : Rect S512x2048 := Rect.unit (s := S512x2048) ![0, 0] S512x2048.size inb_S512x2048_S512x2048_0_0

/-- The product block after the body: its one store, of the product payload of the two loaded input blocks. -/
def out0_2 (x0 : Vec F S512x1024 .f32) (x1 : Vec F S2048x1024 .f32) : Vec F S512x2048 .f32 :=
  View.canon [⟨r0_2, k0_pay1 (View.ld x0 r0_0) (View.ld x1 r0_1)⟩]

/-- The one store covers the block. -/
theorem cover0_2 (p0 : Vec F S512x2048 .f32) (y : S512x2048.Idx) :
    ∃ pc ∈ ([⟨r0_2, p0⟩] : List (View.Piece (Elt F) S512x2048 .f32)), y ∈ pc.1.set :=
  View.cover_of_tiled [⟨r0_2, p0⟩] S512x2048.size (by rfl) y

set_option maxHeartbeats 1000000 in
/-- The body on whole staging memrefs: the inputs at contents `x0`, `x1`, the output at anything; it ends with the
    inputs as they were and the output at `out0_2 x0 x1`. -/
theorem sound_kernel0 (c : Dev nD) (E : Set ℕ) (i : grid0.Coords) (arg2 : Memref sig .tc .vmem S512x1024 .f32) (harg2 : arg2.IsWhole)
    (arg3 : Memref sig .tc .vmem S2048x1024 .f32) (harg3 : arg3.IsWhole) (arg4 : Memref sig .tc .vmem S512x2048 .f32) (harg4 : arg4.IsWhole)
    (x0 : Vec F S512x1024 .f32) (x1 : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each
    input's buffer at its block and the output's at the product of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Shared.lean ====
/-
  What the three control cases of the second kernel region (the pairwise contraction, grid 4 x 4 x 8) share. The
  body resets its scratch accumulator when the innermost coordinate is 0, adds one tile's contraction to it at every
  point, and stores accumulator plus bias into the output block when the innermost coordinate is 7. So a point is
  in one of three cases, decided by its position modulo 8; the output window is idle and not written back except in
  the last case. The region's invariant holds the scratch accumulator among the scoped buffers no window stages.
-/
import proofs.«166932_j51814485459081_1_alg».proof.Proof.Gen.KernelIdeal.Launch
import proofs.«166932_j51814485459081_1_alg».proof.Proof.Gen.KernelIdeal.Skeleton
import proofs.«166932_j51814485459081_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset: the innermost grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output block is stored: the innermost grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, exactly where the body does
    not store into it. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S128x128x2 .f32 := (Memref.whole cc1_stg5_0 : Memref sig .tc .vmem S128x128x2 .f32).view
/-- Each window's current staging memref at point `t`, as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128x2 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, carried between points. -/
abbrev scM1_0 : Memref sig .tc .vmem S128x128x2 .f32 := Memref.whole cc1_scratch0
abbrev VS1_0 : View sig .tc .vmem S128x128x2 .f32 := scM1_0.view

/-- The class invariant of the second region spelt out: the first region's three staging buffers at some contents,
    the scratch accumulator owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Region1RunA.lean ====
/-
  The body of the pairwise kernel in the case where the accumulator is reset and one tile added; nothing is stored into the output block: the pieces each buffer ends with, found by running the
  body symbolically, with the proof that the body run from the inputs' blocks leaves exactly those pieces written.
-/
import proofs.«166932_j51814485459081_1_alg».proof.Proof.KI.Region1Shared

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`.1`) and in the scratch accumulator (`.2.1`), last store
    first, with the body's triple on whole staging memrefs. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) :
    Σ' (L5 : List (View.Piece (Elt F) S128x128x2 .f32)), { LS0 : List (View.Piece (Elt F) S128x128x2 .f32) //
      ∀ (xi5 : Vec F S128x128x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_kernel i arg3 harg3 arg4 harg4 arg5 harg5 arg6 harg6 arg7 harg7 arg8 harg8 arg9 harg9) K } := by
  refine ⟨[], ?_, fun xi5 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.Region1RunB.lean ====
/-
  The body of the pairwise kernel in the case where one tile is added onto the accumulator the point before left; nothing is stored into the output block: the pieces each buffer ends with, found by running the
  body symbolically, with the proof that the body run from the inputs' blocks leaves exactly those pieces written.
-/
import proofs.«166932_j51814485459081_1_alg».proof.Proof.KI.Region1Shared

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`.1`) and in the scratch accumulator (`.2.1`), last store
    first, with the body's triple on whole staging memrefs. -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) :
    Σ' (L5 : List (View.Piece (Elt F) S128x128x2 .f32)), { LS0 : List (View.Piece (Elt F) S128x128x2 .f32) //
      ∀ (xi5 : Vec F S128x128x2 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_kernel i arg3 harg3 arg4 harg4 arg5 harg5 arg6 harg6 arg7 harg7 arg8 harg8 arg9 harg9) K } := by
  refine ⟨[], ?_, fun xi5 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KI.Region1RunC.lean ====
/-
  The body of the pairwise kernel in the case where one tile is added onto the accumulator the point before left, and accumulator plus bias is stored over the output block: the pieces each buffer ends with, found by running the
  body symbolically, with the proof that the body run from the inputs' blocks leaves exactly those pieces written.
-/
import proofs.«166932_j51814485459081_1_alg».proof.Proof.KI.Region1Shared

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block (`.1`) and in the scratch accumulator (`.2.1`), last store
    first, with the body's triple on whole staging memrefs. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) :
    Σ' (L5 : List (View.Piece (Elt F) S128x128x2 .f32)), { LS0 : List (View.Piece (Elt F) S128x128x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__pairwise_kernel i arg3 harg3 arg4 harg4 arg5 harg5 arg6 harg6 arg7 harg7 arg8 harg8 arg9 harg9) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KI.Region1Frame.lean ====
/-
  The second kernel region (the pairwise contraction) stated at a parameter `V`, the buffers' contents when the
  region is entered. What the output block and the scratch accumulator hold after each grid point is defined by
  recursion on the point: a point whose innermost coordinate is 0 starts the accumulator afresh; every other point
  adds to what the point before left; a point whose innermost coordinate is 7 also stores the output block. The
  region's invariant carries the accumulator at exactly these contents from point to point, beside the other scoped
  buffers and the generator register; the body obligation is then one case split on the position modulo 8.
-/
import proofs.«166932_j51814485459081_1_alg».proof.Proof.KI.Region1RunA
import proofs.«166932_j51814485459081_1_alg».proof.Proof.KI.Region1RunB
import proofs.«166932_j51814485459081_1_alg».proof.Proof.KI.Region1RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- This case stores nothing into the output block (the window is idle and not written back): a placeholder nothing consults. -/
def out1_A_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S128x128x2 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)
/-- The pieces this case leaves in the scratch accumulator cover it (one whole-block store is the last). -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) (y : S128x128x2.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S128x128x2.size (by sl_kernel_rfl) y
/-- What this case leaves in the scratch accumulator: its pieces read back. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S128x128x2 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- This case stores nothing into the output block (the window is idle and not written back): a placeholder nothing consults. -/
def out1_B_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)
/-- The pieces this case leaves in the scratch accumulator cover it (one whole-block store is the last). -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) (y : S128x128x2.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S128x128x2.size (by sl_kernel_rfl) y
/-- What this case leaves in the scratch accumulator: its pieces read back. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- What the last case leaves in the output block: its pieces read back. -/
def out1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
theorem cover1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) (y : S128x128x2.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S128x128x2.size (by sl_kernel_rfl) y
/-- The pieces this case leaves in the scratch accumulator cover it (one whole-block store is the last). -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) (y : S128x128x2.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S128x128x2.size (by sl_kernel_rfl) y
/-- What this case leaves in the scratch accumulator: its pieces read back. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S128x128x2 .f32) : Vec F S128x128x2 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-- The output block and the accumulator after a point that resets the accumulator, -/
def ptA (c : Dev nD) (t : Fin cfg1.N) (h0 : t.val % 8 = 0) (h1 : ¬t.val % 8 = 7) : Vec F S128x128x2 .f32 × Vec F S128x128x2 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
/-- after a point that only accumulates onto `xs0`, -/
def ptB (c : Dev nD) (t : Fin cfg1.N) (h0 : ¬t.val % 8 = 0) (h1 : ¬t.val % 8 = 7) (xs0 : Vec F S128x128x2 .f32) : Vec F S128x128x2 .f32 × Vec F S128x128x2 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0)
/-- and after a point that accumulates onto `xs0` and stores the output block. -/
def ptC (c : Dev nD) (t : Fin cfg1.N) (h0 : ¬t.val % 8 = 0) (h1 : t.val % 8 = 7) (xs0 : Vec F S128x128x2 .f32) : Vec F S128x128x2 .f32 × Vec F S128x128x2 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0)

/-- THE ACCUMULATION: what the output's staging buffer and the scratch accumulator hold after the body at
    position `n` (first component the output block, second the accumulator). -/
def outsAt1 (c : Dev nD) : (n : ℕ) → n < cfg1.N → Vec F S128x128x2 .f32 × Vec F S128x128x2 .f32
  | 0, hn => ptA V c ⟨0, hn⟩ (Nat.zero_mod _) (fun h => absurd (show 0 % 8 = 7 from h) (by decide))
  | n + 1, hn =>
    if h0 : (n + 1) % 8 = 0 then ptA V c ⟨n + 1, hn⟩ h0 (fun h => by have h' : (n + 1) % 8 = 7 := h; omega)
    else if h1 : (n + 1) % 8 = 7 then ptC V c ⟨n + 1, hn⟩ h0 h1 (outsAt1 c n (Nat.lt_of_succ_lt hn)).2
    else ptB V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact dif_pos h0
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region invariant before position `n`: before the first point every scoped buffer no window stages at
    anything and the generator register at some state; afterwards the same with the scratch accumulator at what the
    point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c (n - 1) (by omega)).2)) ∗ (∃ r, prngReg c r)) := by
  cases n with
  | zero => exact absurd rfl hz
  | succ n => rfl

/-- The proof data of the second pipeline on core `c`: the arrays as the region finds them; after the body each
    input's buffer at its block and the output's at the accumulation's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the position modulo 8 says which case the point
    is in; the invariant hands the body the accumulator at what the point before left (at anything before the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => h1 ((hcond1_1 t).mp h))) (noFlush1_5 t (fun h => h1 ((hcond1_1 t).mp h)))]
    rw [outsAt1_A V c t h0 h1]
    unfold ptA sout1_A_0; (try dsimp only)
    by_cases hz : t.val = 0
    · rw [PhiS_castSucc V c t, PhiS_zero V c _ _ hz, PhiA1_eq]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold ptC out1_C_5 sout1_C_0; (try dsimp only)
      rw [PhiS_castSucc V c t, PhiS_pos V c _ _ hz]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold ptB sout1_B_0; (try dsimp only)
      rw [PhiS_castSucc V c t, PhiS_pos V c _ _ hz]
      iintro ⟨⟨⟨Hr0, Hr1, Hr2, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hr0 Hr1 Hr2 HS0 Hg]
      · isplitl [Hr0 Hr1 Hr2 HS0]
        · isplitl [Hr0]; · iexact Hr0
          isplitl [Hr1]; · iexact Hr1
          isplitl [Hr2]; · iexact Hr2
          unfold owns; iexists _; isplitr
          swap; · iexact HS0
          ipureintro; exact View.read_writes_of_cover _ _ _ _ _ (scover1_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hr0, Hr1, Hr2, HS0⟩, Hg⟩
  isplitl [Hr0 Hr1 Hr2 HS0]
  · isplitl [Hr0]; · iexact Hr0
    isplitl [Hr1]; · iexact Hr1
    isplitl [Hr2]; · iexact Hr2
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.MainRun.lean ====
/-
  The whole program as five segments — host operations, the projection region, host operations, the pairwise region,
  host operations — run from the launch to the return. The buffers' contents at each boundary are a fold from the
  launch memory: a host stretch applies its operations; a region replaces its windows' arrays by what its write-backs
  leave and keeps every other buffer. The run ends with every unscoped buffer at the last boundary's contents.
-/
import proofs.«166932_j51814485459081_1_alg».proof.Proof.KI.Region0
import proofs.«166932_j51814485459081_1_alg».proof.Proof.KI.Region1Frame

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, -/
abbrev W0 : Dev nD → Valuation τ sig (Elt F) := fun c b => m (c, b)
/-- after the first host stretch (the projection region's entry), -/
abbrev W1 : Dev nD → Valuation τ sig (Elt F) := fun c => StableHlo.after hostOps0 (W0 m c)
abbrev VR0 : (c : Dev nD) → (b : Ref sig .tc) → Buf (Elt F) ((c : Thread nD τ).loc b) := fun c b => W1 m c b
/-- at the projection region's exit: its arrays at what the pipeline leaves, every other buffer as entered, -/
def W2 (c : Dev nD) : Valuation τ sig (Elt F) :=
  Pipeline.withArrays spec0 c (W1 m c) fun w => (dat0 (VR0 m) c).arrAt w cfg0.N
theorem W2_arr (c : Dev nD) (w : Fin cfg0.W) :
    W2 m c (Proc.devRef .tc (Pipeline.arrRef spec0 w)) = (dat0 (VR0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VX0 : (c : Dev nD) → (b : Ref sig .tc) → Buf (Elt F) ((c : Thread nD τ).loc b) := fun c b => W2 m c b
theorem hF0 (c : Dev nD) (w : Fin cfg0.W) : (dat0 (VR0 m) c).arrAt w cfg0.N = VX0 m c (Pipeline.arrRef spec0 w) :=
  (W2_arr m c w).symm
theorem hrest0 (c : Dev nD) : ∀ b, b ∉ Finset.univ.image (Pipeline.arrRef spec0) → VX0 m c b = VR0 m c b :=
  fun b hb => W2_of_ne m c b fun w e => hb (Finset.mem_image.mpr ⟨w, Finset.mem_univ _, e⟩)
/-- after the second host stretch (the pairwise region's entry), -/
abbrev W3 : Dev nD → Valuation τ sig (Elt F) := fun c => StableHlo.after hostOps1 (W2 m c)
abbrev VR1 : (c : Dev nD) → (b : Ref sig .tc) → Buf (Elt F) ((c : Thread nD τ).loc b) := fun c b => W3 m c b
/-- at the pairwise region's exit, -/
def W4 (c : Dev nD) : Valuation τ sig (Elt F) :=
  Pipeline.withArrays spec1 c (W3 m c) fun w => (dat1 (VR1 m) c).arrAt w cfg1.N
theorem W4_arr (c : Dev nD) (w : Fin cfg1.W) :
    W4 m c (Proc.devRef .tc (Pipeline.arrRef spec1 w)) = (dat1 (VR1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VX1 : (c : Dev nD) → (b : Ref sig .tc) → Buf (Elt F) ((c : Thread nD τ).loc b) := fun c b => W4 m c b
theorem hF1 (c : Dev nD) (w : Fin cfg1.W) : (dat1 (VR1 m) c).arrAt w cfg1.N = VX1 m c (Pipeline.arrRef spec1 w) :=
  (W4_arr m c w).symm
theorem hrest1 (c : Dev nD) : ∀ b, b ∉ Finset.univ.image (Pipeline.arrRef spec1) → VX1 m c b = VR1 m c b :=
  fun b hb => W4_of_ne m c b fun w e => hb (Finset.mem_image.mpr ⟨w, Finset.mem_univ _, e⟩)
/-- and after the last host stretch (the return). -/
abbrev W5 : Dev nD → Valuation τ sig (Elt F) := fun c => StableHlo.after hostOps2 (W4 m c)

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (VR0 m) c
  | ⟨1, _⟩ => fun c => dat1 (VR1 m) c
abbrev 𝒱₀ : Variants := Variants.none
abbrev L₀ : GSem nD τ sig → Finset Unit := fun _ => ∅
abbrev lv₀ : GSem nD τ sig → Unit → ℕ := fun _ _ => 0
/-- What rides beside the buffers through every segment: the generator register at some state and the core owing nothing. -/
abbrev R₀ (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R₀

theorem hostOps0_fr : (hostOps0 : List (HloOp τ sig (Elt F))).Forall fun op => op.fresh = ∅ := by
  simp only [List.Forall]; repeat' constructor
theorem hostOps1_fr : (hostOps1 : List (HloOp τ sig (Elt F))).Forall fun op => op.fresh = ∅ := by
  simp only [List.Forall]; repeat' constructor
theorem hostOps2_fr : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at `W1`, left with them at `W2`.
    Its arrays are split out of the unscoped buffers and put back at the contents the pipeline leaves; the generator
    register goes into the region's invariant and comes back; nothing is owed; the kernel has no semaphore of its own. -/
def reg0 : Pipeline.RegionSeg (pcfgs (F := F)) padm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L₀ lv₀ 0 fun _ _ => rfl
  pre c := iprop(StableHlo.held (c : Thread nD τ) (Pipeline.ucRefs τ sig) (W1 m c) ∗ R₀ c)
  post c := iprop(StableHlo.held (c : Thread nD τ) (Pipeline.ucRefs τ sig) (W2 m c) ∗ R₀ c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`.
    Its arrays are split out of the unscoped buffers and put back at the contents the pipeline leaves; the generator
    register goes into the region's invariant and comes back; nothing is owed; the kernel has no semaphore of its own. -/
def reg1 : Pipeline.RegionSeg (pcfgs (F := F)) padm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L₀ lv₀ 1 fun _ _ => rfl
  pre c := iprop(StableHlo.held (c : Thread nD τ) (Pipeline.ucRefs τ sig) (W3 m c) ∗ R₀ c)
  post c := iprop(StableHlo.held (c : Thread nD τ) (Pipeline.ucRefs τ sig) (W4 m c) ∗ R₀ c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    rw [Pipeline.ownSems0_none]
    refine BIBase.Entails.trans (hout1 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev hsegs : List (Pipeline.Seg (pcfgs (F := F)) padm (pdats m) () defs₀ 𝒱₀ L₀ lv₀) :=
  [ .host (hseg hostOps0 hostOps0_sub hostOps0_fr (W0 m)),
    .region (reg0 m),
    .host (hseg hostOps1 hostOps1_sub hostOps1_fr (W2 m)),
    .region (reg1 m),
    .host (hseg hostOps2 hostOps2_sub hostOps2_fr (W4 m)) ]
theorem main_run (c : Dev nD) : main (F := F) c = Pipeline.Seg.run (hsegs m) := (main_chain c).trans (by chain_rfl)

set_option backward.isDefEq.respectTransparency.types false in
/-- THE RUN: from any memory with zero counters every weakly fair execution of the program terminates, nothing
    faulting, and every final state has every unscoped buffer at the last boundary's contents `W5`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) padm (pdats m) () cellOf_inj emb₁ defs₀ 𝒱₀ L₀ lv₀ m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R₀ c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.Hand

end
-- ==== Proof.KI.ArgsKept.lean ====
/-
  The program's five arguments end as they were launched.

  No host operation writes an argument's buffer: each writes its own result. The projection region's arrays are three
  intermediate buffers, so it keeps every argument. The pairwise region's arrays are five intermediate buffers and the
  output weights, which it reads through an input window; an input window never flushes, so its array stays as the
  region found it. Hence the fold of the five segments, read at an argument's buffer, walks back to the launch memory,
  and the run, which ends with every unscoped buffer at the last boundary's contents, ends with the arguments unchanged.
-/
import proofs.«166932_j51814485459081_1_alg».proof.Proof.KI.MainRun

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A host stretch keeps every buffer that is none of its results -/

/-- The first host stretch writes `main_v0` … `main_v3` only. -/
theorem hostOps0_keeps (V : Valuation τ sig (Elt F)) (b : Ref sig .tc)
    (h0 : b ≠ main_v0) (h1 : b ≠ main_v1) (h2 : b ≠ main_v2) (h3 : b ≠ main_v3) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.unary_writes, StableHlo.binary_writes, StableHlo.reshape_writes,
      Finset.mem_singleton]
    exact ⟨StableHlo.devRef_ne_of_ne h0, StableHlo.devRef_ne_of_ne h1, StableHlo.devRef_ne_of_ne h2,
      StableHlo.devRef_ne_of_ne h3⟩))

/-- The second host stretch writes `main_v5` … `main_v8` only. -/
theorem hostOps1_keeps (V : Valuation τ sig (Elt F)) (b : Ref sig .tc)
    (h5 : b ≠ main_v5) (h6 : b ≠ main_v6) (h7 : b ≠ main_v7) (h8 : b ≠ main_v8) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.unary_writes, StableHlo.binary_writes, StableHlo.reshape_writes,
      Finset.mem_singleton]
    exact ⟨StableHlo.devRef_ne_of_ne h5, StableHlo.devRef_ne_of_ne h6, StableHlo.devRef_ne_of_ne h7,
      StableHlo.devRef_ne_of_ne h8⟩))

/-- The last host stretch writes `main_v10`, `main_v11`, `main_cst`, `main_v12`, `main_v13`, `main_v14` only. -/
theorem hostOps2_keeps (V : Valuation τ sig (Elt F)) (b : Ref sig .tc)
    (h10 : b ≠ main_v10) (h11 : b ≠ main_v11) (hc : b ≠ main_cst) (h12 : b ≠ main_v12) (h13 : b ≠ main_v13)
    (h14 : b ≠ main_v14) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.reshape_writes, Finset.mem_singleton]
    exact ⟨StableHlo.devRef_ne_of_ne h10, StableHlo.devRef_ne_of_ne h11, StableHlo.devRef_ne_of_ne hc,
      StableHlo.devRef_ne_of_ne h12, StableHlo.devRef_ne_of_ne h13, StableHlo.devRef_ne_of_ne h14⟩))

variable (m : (ℓ : Loc nD τ sig) → Buf (Elt F) ℓ)

/-! ## Each argument, boundary by boundary -/

theorem W5_main_arg0 (c : Dev nD) : W5 m c (Proc.devRef .tc main_arg0) = m ((c : Thread nD τ).loc main_arg0) :=
  calc W5 m c (Proc.devRef .tc main_arg0)
    _ = W4 m c (Proc.devRef .tc main_arg0) :=
        hostOps2_keeps _ main_arg0 (by decide) (by decide) (by decide) (by decide) (by decide) (by decide)
    _ = W3 m c (Proc.devRef .tc main_arg0) := W4_of_ne m c main_arg0 (by decide)
    _ = W2 m c (Proc.devRef .tc main_arg0) := hostOps1_keeps _ main_arg0 (by decide) (by decide) (by decide) (by decide)
    _ = W1 m c (Proc.devRef .tc main_arg0) := W2_of_ne m c main_arg0 (by decide)
    _ = W0 m c (Proc.devRef .tc main_arg0) := hostOps0_keeps _ main_arg0 (by decide) (by decide) (by decide) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) :=
        hostOps2_keeps _ main_arg1 (by decide) (by decide) (by decide) (by decide) (by decide) (by decide)
    _ = W3 m c (Proc.devRef .tc main_arg1) := W4_of_ne m c main_arg1 (by decide)
    _ = W2 m c (Proc.devRef .tc main_arg1) := hostOps1_keeps _ main_arg1 (by decide) (by decide) (by decide) (by decide)
    _ = W1 m c (Proc.devRef .tc main_arg1) := W2_of_ne m c main_arg1 (by decide)
    _ = W0 m c (Proc.devRef .tc main_arg1) := hostOps0_keeps _ main_arg1 (by decide) (by decide) (by decide) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) :=
        hostOps2_keeps _ main_arg2 (by decide) (by decide) (by decide) (by decide) (by decide) (by decide)
    _ = W3 m c (Proc.devRef .tc main_arg2) := W4_of_ne m c main_arg2 (by decide)
    _ = W2 m c (Proc.devRef .tc main_arg2) := hostOps1_keeps _ main_arg2 (by decide) (by decide) (by decide) (by decide)
    _ = W1 m c (Proc.devRef .tc main_arg2) := W2_of_ne m c main_arg2 (by decide)
    _ = W0 m c (Proc.devRef .tc main_arg2) := hostOps0_keeps _ main_arg2 (by decide) (by decide) (by decide) (by decide)
    _ = m ((c : Thread nD τ).loc main_arg2) := rfl

/-- The output weights are input window 3 of the pairwise region: its array is never flushed. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) :=
        hostOps2_keeps _ main_arg3 (by decide) (by decide) (by decide) (by decide) (by decide) (by decide)
    _ = W3 m c (Proc.devRef .tc main_arg3) :=
        (W4_arr m c 3).trans (((dat1 (VR1 m) c).arrAt_in 3 rfl _).trans (A_eq1 (VR1 m) c 3))
    _ = W2 m c (Proc.devRef .tc main_arg3) := hostOps1_keeps _ main_arg3 (by decide) (by decide) (by decide) (by decide)
    _ = W1 m c (Proc.devRef .tc main_arg3) := W2_of_ne m c main_arg3 (by decide)
    _ = W0 m c (Proc.devRef .tc main_arg3) := hostOps0_keeps _ main_arg3 (by decide) (by decide) (by decide) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) :=
        hostOps2_keeps _ main_arg4 (by decide) (by decide) (by decide) (by decide) (by decide) (by decide)
    _ = W3 m c (Proc.devRef .tc main_arg4) := W4_of_ne m c main_arg4 (by decide)
    _ = W2 m c (Proc.devRef .tc main_arg4) := hostOps1_keeps _ main_arg4 (by decide) (by decide) (by decide) (by decide)
    _ = W1 m c (Proc.devRef .tc main_arg4) := W2_of_ne m c main_arg4 (by decide)
    _ = W0 m c (Proc.devRef .tc main_arg4) := hostOps0_keeps _ main_arg4 (by decide) (by decide) (by decide) (by decide)
    _ = m ((c : Thread nD τ).loc main_arg4) := rfl

/-! ## The frame claim -/

/-- From any memory with zero counters every weakly fair execution of the program terminates, nothing faulting, and
    every final state has the five arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

end Cert.KernelIdeal.Hand

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.HostOpsRead.lean ====
/-
  The host steps around the two kernels, read entry by entry.

  Before the first kernel: the activations [1, 512, 1024] are viewed [512, 1024]; the [1024, 2048] weight matrix is cut
  into its left and right halves of 1024 columns, and the halves are stacked on the row axis to [2048, 1024], so row r
  of the stack is row r of the left half for r < 1024 and row r − 1024 of the right half otherwise.  Between the kernels:
  the [512, 2048] projection is cut into its left and right halves, and the two bias vectors get a leading unit axis.
  After the second kernel: the [512, 512, 2] block z is added to its transpose in the first two axes, multiplied by the
  constant one half, and given a leading unit axis; entry (0, i, j, c) is (z(i, j, c) + z(j, i, c)) · ½.

  The layout lemmas hold for any element type; only the last one is about extended reals.
-/
import proofs.«166932_j51814485459081_1_alg».proof.Proof.Gen.KernelIdeal
import proofs.«166932_j51814485459081_1_alg».proof.Proof.LibBroadcastInDim
import Idealize.ShloMosaic.Lib.ValueLayout
import Idealize.ShloMosaic.PureOps.Ideal.Laws

noncomputable section

namespace Cert.KernelIdeal.Pay

open Cert.KernelIdeal Idealize.ShloMosaic Idealize.ShloMosaic.ValueIdx

variable {α : Type}

/-! ## Positions in an axis of 2048 cut into two halves of 1024 -/

/-- Position h of the first half, as a position of the whole axis. -/
abbrev halfLo (h : Fin 1024) : Fin 2048 := ⟨h.val, by have := h.isLt; omega⟩
/-- Position h of the second half, as a position of the whole axis: 1024 + h. -/
abbrev halfHi (h : Fin 1024) : Fin 2048 := ⟨1024 + h.val, by have := h.isLt; omega⟩

/-! ## Before the first kernel -/

/-- The activations viewed [512, 1024] read, at (l, h), the [1, 512, 1024] array at (0, l, h). -/
theorem reshape_x_apply (x : S1x512x1024.Idx → α) (l : Fin 512) (h : Fin 1024) :
    shapeCast S512x1024 x Gen.shapeCasts_S1x512x1024_S512x1024 (ix2 l h) = x (ix3 (0 : Fin 1) l h) :=
  shapeCast_1ab_ab_apply x _ l h

/-- The left half of the weight matrix reads, at (o, h), the matrix at (o, h). -/
theorem sliceW_lo_apply (w : S1024x2048.Idx → α) (o h : Fin 1024) :
    extractStridedSlice S1024x1024 ![0, 0] w Gen.slices_S1024x2048_S1024x1024_0_0 (ix2 o h) = w (ix2 o (halfLo h)) :=
  slice2_axis1_apply 0 w _ o h (halfLo h) (Nat.zero_add _).symm

/-- The right half of the weight matrix reads, at (o, h), the matrix at (o, 1024 + h). -/
theorem sliceW_hi_apply (w : S1024x2048.Idx → α) (o h : Fin 1024) :
    extractStridedSlice S1024x1024 ![0, 1024] w Gen.slices_S1024x2048_S1024x1024_0_1024 (ix2 o h) = w (ix2 o (halfHi h)) :=
  slice2_axis1_apply 1024 w _ o h (halfHi h) rfl

/-- The stack of two [1024, 1024] matrices reads, at a row o of the first 1024, the first matrix's row o. -/
theorem concat_lo_apply (a b : S1024x1024.Idx → α) (o h : Fin 1024) :
    concatenate S2048x1024 0 [⟨S1024x1024, a⟩, ⟨S1024x1024, b⟩]
      Gen.concatenates_S1024x1024_S1024x1024_S2048x1024_d0 (ix2 (halfLo o) h) = a (ix2 o h) :=
  concatenate_pair_apply_left 0 a b _ (ix2 (halfLo o) h) rfl (ix2 o h)
    (fun c => match c with | ⟨0, _⟩ => rfl | ⟨1, _⟩ => rfl)

/-- The stack reads, at row 1024 + o, the second matrix's row o. -/
theorem concat_hi_apply (a b : S1024x1024.Idx → α) (o h : Fin 1024) :
    concatenate S2048x1024 0 [⟨S1024x1024, a⟩, ⟨S1024x1024, b⟩]
      Gen.concatenates_S1024x1024_S1024x1024_S2048x1024_d0 (ix2 (halfHi o) h) = b (ix2 o h) :=
  concatenate_pair_apply_right 0 a b _ (ix2 (halfHi o) h) rfl rfl (ix2 o h)
    (fun c hc => match c, hc with
      | ⟨0, _⟩, hc => absurd rfl hc
      | ⟨1, _⟩, _ => rfl)
    (by show o.val + 1024 = 1024 + o.val; omega)

/-- The stacked weights in one piece: row o of the stack is the weight matrix's row o read in its left half, and row
    1024 + o is the weight matrix's row o read in its right half. -/
theorem stackW_lo_apply (w : S1024x2048.Idx → α) (o h : Fin 1024) :
    concatenate S2048x1024 0
      [⟨S1024x1024, extractStridedSlice S1024x1024 ![0, 0] w Gen.slices_S1024x2048_S1024x1024_0_0⟩,
       ⟨S1024x1024, extractStridedSlice S1024x1024 ![0, 1024] w Gen.slices_S1024x2048_S1024x1024_0_1024⟩]
      Gen.concatenates_S1024x1024_S1024x1024_S2048x1024_d0 (ix2 (halfLo o) h) = w (ix2 o (halfLo h)) :=
  (concat_lo_apply _ _ o h).trans (sliceW_lo_apply w o h)

theorem stackW_hi_apply (w : S1024x2048.Idx → α) (o h : Fin 1024) :
    concatenate S2048x1024 0
      [⟨S1024x1024, extractStridedSlice S1024x1024 ![0, 0] w Gen.slices_S1024x2048_S1024x1024_0_0⟩,
       ⟨S1024x1024, extractStridedSlice S1024x1024 ![0, 1024] w Gen.slices_S1024x2048_S1024x1024_0_1024⟩]
      Gen.concatenates_S1024x1024_S1024x1024_S2048x1024_d0 (ix2 (halfHi o) h) = w (ix2 o (halfHi h)) :=
  (concat_hi_apply _ _ o h).trans (sliceW_hi_apply w o h)

/-! ## Between the kernels -/

/-- The left half of the projection reads, at (l, h), the projection at (l, h). -/
theorem sliceP_lo_apply (p : S512x2048.Idx → α) (l : Fin 512) (h : Fin 1024) :
    extractStridedSlice S512x1024 ![0, 0] p Gen.slices_S512x2048_S512x1024_0_0 (ix2 l h) = p (ix2 l (halfLo h)) :=
  slice2_axis1_apply 0 p _ l h (halfLo h) (Nat.zero_add _).symm

/-- The right half of the projection reads, at (l, h), the projection at (l, 1024 + h). -/
theorem sliceP_hi_apply (p : S512x2048.Idx → α) (l : Fin 512) (h : Fin 1024) :
    extractStridedSlice S512x1024 ![0, 1024] p Gen.slices_S512x2048_S512x1024_0_1024 (ix2 l h) = p (ix2 l (halfHi h)) :=
  slice2_axis1_apply 1024 p _ l h (halfHi h) rfl

/-- The hidden bias with a leading unit axis reads, at (0, h), the bias at h. -/
theorem reshape_b1_apply (b : S1024.Idx → α) (u : Fin 1) (h : Fin 1024) :
    shapeCast S1x1024 b Gen.shapeCasts_S1024_S1x1024 (ix2 u h) = b (ix1 h) :=
  shapeCast_a_1a_apply b _ u h

/-- The output bias with a leading unit axis reads, at (0, c), the bias at c. -/
theorem reshape_b2_apply (b : S2.Idx → α) (u : Fin 1) (c : Fin 2) :
    shapeCast S1x2 b Gen.shapeCasts_S2_S1x2 (ix2 u c) = b (ix1 c) :=
  shapeCast_a_1a_apply b _ u c

/-! ## After the second kernel -/

/-- A [512, 512, 2] block transposed in its first two axes reads, at (i, j, c), the block at (j, i, c). -/
theorem transpose_z_apply (z : S512x512x2.Idx → α) (i j : Fin 512) (c : Fin 2) :
    transpose S512x512x2 [1, 0, 2] z Gen.transposes_S512x512x2_S512x512x2_1_0_2 (ix3 i j c) = z (ix3 j i c) :=
  transpose_apply [1, 0, 2] z _ (ix3 i j c) (ix3 j i c)
    (fun b => match b with | ⟨0, _⟩ => rfl | ⟨1, _⟩ => rfl | ⟨2, _⟩ => rfl)

/-- A [512, 512, 2] block given a leading unit axis reads, at (u, i, j, c), the block at (i, j, c). -/
theorem addUnit_z_apply (z : S512x512x2.Idx → α) (u : Fin 1) (i j : Fin 512) (c : Fin 2) :
    broadcastInDim S1x512x512x2 ![1, 2, 3] Gen.bcast_S512x512x2_S1x512x512x2_1_2_3 z (ix4 u i j c) = z (ix3 i j c) :=
  broadcastInDim_apply _ Gen.bcast_S512x512x2_S1x512x512x2_1_2_3 z (ix4 u i j c) (ix3 i j c)
    (fun a => match a with
      | ⟨0, _⟩ => by show i.val = if (512 : Nat) = 1 then 0 else i.val; rw [if_neg (by decide)]
      | ⟨1, _⟩ => by show j.val = if (512 : Nat) = 1 then 0 else j.val; rw [if_neg (by decide)]
      | ⟨2, _⟩ => by show c.val = if (2 : Nat) = 1 then 0 else c.val; rw [if_neg (by decide)])

/-- The pattern 0x3F000000 denotes one half. -/
theorem ofBits_half : Ideal.ofBits .f32 0x3F000000#32 = ((1 / 2 : ℝ) : EReal) := by
  simp [Ideal.ofBits, Ideal.ieee, -EReal.coe_mul]; norm_num

/-- The host tail on the extended reals: entry (0, i, j, c) of the result is (z(i, j, c) + z(j, i, c)) times the
    constant the pattern 0x3F000000 denotes. -/
theorem tail_apply (z : FVec Ideal S512x512x2 .f32) (u : Fin 1) (i j : Fin 512) (c : Fin 2) :
    broadcastInDim S1x512x512x2 ![1, 2, 3] Gen.bcast_S512x512x2_S1x512x512x2_1_2_3
      (mulf (F := Ideal) (addf (F := Ideal) z (transpose S512x512x2 [1, 0, 2] z Gen.transposes_S512x512x2_S512x512x2_1_0_2))
        (broadcastInDim S512x512x2 ![] Gen.bcast_S_S512x512x2 (constant (F := Ideal) S_ .f32 0x3F000000#32)))
      (ix4 u i j c)
      = (z (ix3 i j c) + z (ix3 j i c)) * Ideal.ofBits .f32 0x3F000000#32 := by
  rw [addUnit_z_apply, mulf_apply, addf_apply, transpose_z_apply, Cert.Lib.BroadcastInDim.scalar_apply, constant_apply]

end Cert.KernelIdeal.Pay

end
-- ==== Proof.KI.ValueTail.lean ====
/-
  The program's result, read entry by entry on the extended reals, in terms of what the pairwise region leaves.

  After the pairwise region the last host stretch transposes the [512, 512, 2] block in its first two axes, adds the
  transpose to the block, multiplies by the constant the pattern 0x3F000000 denotes (one half), and gives the product
  a leading unit axis. So entry (0, i, j, k) of the result is (z(i, j, k) + z(j, i, k)) times that constant, where z
  is the block as the region leaves it.
-/
import proofs.«166932_j51814485459081_1_alg».proof.Proof.KI.MainRun
import proofs.«166932_j51814485459081_1_alg».proof.Proof.HostOpsRead

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL.Sem

/-- The last host stretch over any contents `V` of the buffers: the result buffer holds the symmetrized block, halved,
    under a leading unit axis. -/
theorem after_hostOps2_v14 (V : Valuation τ sig (Elt Ideal)) :
    (StableHlo.after hostOps2 V (Proc.devRef .tc main_v14) : S1x512x512x2.Idx → EReal)
      = broadcastInDim S1x512x512x2 ![1, 2, 3] bcast_S512x512x2_S1x512x512x2_1_2_3
          (mulf (F := Ideal)
            (addf (F := Ideal) (V (Proc.devRef .tc main_v9) : S512x512x2.Idx → EReal)
              (transpose S512x512x2 [1, 0, 2] (V (Proc.devRef .tc main_v9) : S512x512x2.Idx → EReal)
                transposes_S512x512x2_S512x512x2_1_0_2))
            (broadcastInDim S512x512x2 ![] bcast_S_S512x512x2 (constant (F := Ideal) S_ .f32 0x3F000000#32))) := by
  dsimp only [hostOps2]
  after_results

/-- The [512, 512, 2] block the pairwise region leaves in its output array, as a function on the extended reals. -/
abbrev blockZ (m : (ℓ : Loc nD τ sig) → Buf (Elt Ideal) ℓ) (c : Dev nD) : S512x512x2.Idx → EReal :=
  W4 m c (Proc.devRef .tc main_v9)

/-- Entry (u, i, j, k) of the program's result is z(i, j, k) + z(j, i, k), times one half as the pattern 0x3F000000
    denotes it, for any function z that the block the pairwise region leaves is known to equal. -/
theorem W5_v14_of (m : (ℓ : Loc nD τ sig) → Buf (Elt Ideal) ℓ) (c : Dev nD) (Z : S512x512x2.Idx → EReal)
    (hZ : (W4 m c (Proc.devRef .tc main_v9) : S512x512x2.Idx → EReal) = Z)
    (u : Fin 1) (i j : Fin 512) (k : Fin 2) :
    (W5 m c (Proc.devRef .tc main_v14) : S1x512x512x2.Idx → EReal) (ix4 u i j k)
      = (Z (ix3 i j k) + Z (ix3 j i k)) * Ideal.ofBits .f32 0x3F000000#32 := by
  subst hZ
  show (StableHlo.after hostOps2 (W4 m c) (Proc.devRef .tc main_v14) : S1x512x512x2.Idx → EReal) (ix4 u i j k) = _
  generalize W4 m c = V
  refine (congrFun (after_hostOps2_v14 V) (ix4 u i j k)).trans ?_
  exact Cert.KernelIdeal.Pay.tail_apply (V (Proc.devRef .tc main_v9)) u i j k

/-- The same with the block named as the region leaves it. -/
theorem W5_v14 (m : (ℓ : Loc nD τ sig) → Buf (Elt Ideal) ℓ) (c : Dev nD) (u : Fin 1) (i j : Fin 512) (k : Fin 2) :
    (W5 m c (Proc.devRef .tc main_v14) : S1x512x512x2.Idx → EReal) (ix4 u i j k)
      = (blockZ m c (ix3 i j k) + blockZ m c (ix3 j i k)) * Ideal.ofBits .f32 0x3F000000#32 :=
  W5_v14_of m c (blockZ m c) rfl u i j k

end Cert.KernelIdeal.Hand

end
-- ==== Proof.KI.Pieces.lean ====
/-
  What each control case of the pairwise body leaves, as pure terms of the input blocks: every store of the body
  covers its whole buffer, so the accumulator ends at the accumulation payload (of the zero block when the case
  resets it, of the previous contents otherwise), and the output block at the bias payload of the new accumulator.
  Likewise the projection body leaves the product payload of its two input blocks.
-/
import proofs.«166932_j51814485459081_1_alg».proof.Proof.KI.Region0
import proofs.«166932_j51814485459081_1_alg».proof.Proof.KI.Region1Frame
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz_S128x128 : (![0, 0] : Fin S128x128.rank → Nat) = fun _ => 0 :=
  funext fun a => by match a with | ⟨0, _⟩ => rfl | ⟨1, _⟩ => rfl
theorem hz_S1x128 : (![0, 0] : Fin S1x128.rank → Nat) = fun _ => 0 :=
  funext fun a => by match a with | ⟨0, _⟩ => rfl | ⟨1, _⟩ => rfl
theorem hz_S2x128 : (![0, 0] : Fin S2x128.rank → Nat) = fun _ => 0 :=
  funext fun a => by match a with | ⟨0, _⟩ => rfl | ⟨1, _⟩ => rfl
theorem hz_S1x2 : (![0, 0] : Fin S1x2.rank → Nat) = fun _ => 0 :=
  funext fun a => by match a with | ⟨0, _⟩ => rfl | ⟨1, _⟩ => rfl
theorem hz_S512x1024 : (![0, 0] : Fin S512x1024.rank → Nat) = fun _ => 0 :=
  funext fun a => by match a with | ⟨0, _⟩ => rfl | ⟨1, _⟩ => rfl
theorem hz_S2048x1024 : (![0, 0] : Fin S2048x1024.rank → Nat) = fun _ => 0 :=
  funext fun a => by match a with | ⟨0, _⟩ => rfl | ⟨1, _⟩ => rfl
theorem hz_S512x2048 : (![0, 0] : Fin S512x2048.rank → Nat) = fun _ => 0 :=
  funext fun a => by match a with | ⟨0, _⟩ => rfl | ⟨1, _⟩ => rfl
theorem hz_S128x128x2 : (![0, 0, 0] : Fin S128x128x2.rank → Nat) = fun _ => 0 :=
  funext fun a => by match a with | ⟨0, _⟩ => rfl | ⟨1, _⟩ => rfl | ⟨2, _⟩ => rfl

section
variable [∀ e, Nonempty (Elt F e)]

theorem out0_2_eq (x0 : Vec F S512x1024 .f32) (x1 : Vec F S2048x1024 .f32) : out0_2 x0 x1 = k0_pay1 x0 x1 := by
  unfold out0_2
  refine (View.canon_unit_zero hz_S512x2048 _ _).trans ?_
  rw [View.ld_unit_zero (S := S512x1024) hz_S512x1024, View.ld_unit_zero (S := S2048x1024) hz_S2048x1024]

theorem sout1_A_0_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : cond1_0 i) (hc1 : ¬cond1_1 i) (x0 : Vec F S128x128 .f32) (x1 : Vec F S128x128 .f32) (x2 : Vec F S1x128 .f32) (x3 : Vec F S2x128 .f32) (x4 : Vec F S1x2 .f32) :
    sout1_A_0 (F := F) c i arg3 harg3 arg4 harg4 arg5 harg5 arg6 harg6 arg7 harg7 arg8 harg8 arg9 harg9 hc0 hc1 x0 x1 x2 x3 x4 = k1_pay2 x0 x1 x2 x3 k1_pay1 := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  refine (View.canon_cons_unit_zero hz_S128x128x2 _ _ _).trans ?_
  simp only [View.readAt_eq_ld, harg3.read_unread, harg4.read_unread, harg5.read_unread, harg6.read_unread, harg7.read_unread, harg9.read_unread,
    View.ld_unit_zero (S := S128x128) hz_S128x128, View.ld_unit_zero (S := S1x128) hz_S1x128, View.ld_unit_zero (S := S2x128) hz_S2x128, View.ld_unit_zero (S := S1x2) hz_S1x2,
    View.ld_unit_zero (S := S128x128x2) hz_S128x128x2, View.readCov_unit_zero (S := S128x128x2) _ hz_S128x128x2]

theorem sout1_B_0_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : ¬cond1_1 i) (x0 : Vec F S128x128 .f32) (x1 : Vec F S128x128 .f32) (x2 : Vec F S1x128 .f32) (x3 : Vec F S2x128 .f32) (x4 : Vec F S1x2 .f32) (xs0 : Vec F S128x128x2 .f32) :
    sout1_B_0 (F := F) c i arg3 harg3 arg4 harg4 arg5 harg5 arg6 harg6 arg7 harg7 arg8 harg8 arg9 harg9 hc0 hc1 x0 x1 x2 x3 x4 xs0 = k1_pay2 x0 x1 x2 x3 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  sl_unfold_words
  refine (View.canon_cons_unit_zero hz_S128x128x2 _ _ _).trans ?_
  simp only [View.readAt_eq_ld, harg3.read_unread, harg4.read_unread, harg5.read_unread, harg6.read_unread, harg7.read_unread, harg9.read_unread,
    View.ld_unit_zero (S := S128x128) hz_S128x128, View.ld_unit_zero (S := S1x128) hz_S1x128, View.ld_unit_zero (S := S2x128) hz_S2x128, View.ld_unit_zero (S := S1x2) hz_S1x2,
    View.ld_unit_zero (S := S128x128x2) hz_S128x128x2, View.readCov_unit_zero (S := S128x128x2) _ hz_S128x128x2]

theorem sout1_C_0_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i) (x0 : Vec F S128x128 .f32) (x1 : Vec F S128x128 .f32) (x2 : Vec F S1x128 .f32) (x3 : Vec F S2x128 .f32) (x4 : Vec F S1x2 .f32) (xs0 : Vec F S128x128x2 .f32) :
    sout1_C_0 (F := F) c i arg3 harg3 arg4 harg4 arg5 harg5 arg6 harg6 arg7 harg7 arg8 harg8 arg9 harg9 hc0 hc1 x0 x1 x2 x3 x4 xs0 = k1_pay2 x0 x1 x2 x3 xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  refine (View.canon_cons_unit_zero hz_S128x128x2 _ _ _).trans ?_
  simp only [View.readAt_eq_ld, harg3.read_unread, harg4.read_unread, harg5.read_unread, harg6.read_unread, harg7.read_unread, harg9.read_unread,
    View.ld_unit_zero (S := S128x128) hz_S128x128, View.ld_unit_zero (S := S1x128) hz_S1x128, View.ld_unit_zero (S := S2x128) hz_S2x128, View.ld_unit_zero (S := S1x2) hz_S1x2,
    View.ld_unit_zero (S := S128x128x2) hz_S128x128x2, View.readCov_unit_zero (S := S128x128x2) _ hz_S128x128x2]

theorem out1_C_5_eq (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S128x128x2 .f32) (harg8 : arg8.IsWhole) (arg9 : Memref sig .tc .vmem S128x128x2 .f32) (harg9 : arg9.IsWhole) (hc0 : ¬cond1_0 i) (hc1 : cond1_1 i) (x0 : Vec F S128x128 .f32) (x1 : Vec F S128x128 .f32) (x2 : Vec F S1x128 .f32) (x3 : Vec F S2x128 .f32) (x4 : Vec F S1x2 .f32) (xs0 : Vec F S128x128x2 .f32) :
    out1_C_5 (F := F) c i arg3 harg3 arg4 harg4 arg5 harg5 arg6 harg6 arg7 harg7 arg8 harg8 arg9 harg9 hc0 hc1 x0 x1 x2 x3 x4 xs0 = k1_pay3 x4 (k1_pay2 x0 x1 x2 x3 xs0) := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  refine (View.canon_cons_unit_zero hz_S128x128x2 _ _ _).trans ?_
  simp only [View.readAt_eq_ld, harg3.read_unread, harg4.read_unread, harg5.read_unread, harg6.read_unread, harg7.read_unread, harg9.read_unread,
    View.ld_unit_zero (S := S128x128) hz_S128x128, View.ld_unit_zero (S := S1x128) hz_S1x128, View.ld_unit_zero (S := S2x128) hz_S2x128, View.ld_unit_zero (S := S1x2) hz_S1x2,
    View.ld_unit_zero (S := S128x128x2) hz_S128x128x2, View.readCov_unit_zero (S := S128x128x2) _ hz_S128x128x2]
end

end Cert.KernelIdeal.Hand

end
-- ==== Proof.KI.PairGeom.lean ====
/-
  The geometry of the pairwise region's windows. Grid point t of the 4 x 4 x 8 grid has coordinates
  (t / 32, (t / 8) % 4, t % 8) = (I, J, s): the first input's block is rows 128 J .. of the a-projection and columns
  128 s .., the second's rows 128 I .. of the b-projection and the same columns, the bias and second-layer weight
  blocks the same columns, the output block rows 128 I .., columns 128 J .. of the logits. The output's blocks at the
  points with s = 7, which are the points that write back, tile the whole [512, 512, 2] array.
-/
import proofs.«166932_j51814485459081_1_alg».proof.Proof.KI.Region1Frame
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps in closed form, decided over the grid. -/
theorem idx1 : ∀ t : Fin cfg1.N,
    win1_0.index t (0 : Fin 2) = (t.val / 8) % 4 ∧ win1_0.index t (1 : Fin 2) = t.val % 8
    ∧ win1_1.index t (0 : Fin 2) = (t.val / 32) % 4 ∧ win1_1.index t (1 : Fin 2) = t.val % 8
    ∧ win1_2.index t (0 : Fin 2) = 0 ∧ win1_2.index t (1 : Fin 2) = t.val % 8
    ∧ win1_3.index t (0 : Fin 2) = 0 ∧ win1_3.index t (1 : Fin 2) = t.val % 8
    ∧ win1_4.index t (0 : Fin 2) = 0 ∧ win1_4.index t (1 : Fin 2) = 0
    ∧ win1_5.index t (0 : Fin 3) = (t.val / 32) % 4 ∧ win1_5.index t (1 : Fin 3) = (t.val / 8) % 4 ∧ win1_5.index t (2 : Fin 3) = 0 :=
  (by decide +kernel : ∀ t : Fin grid1.N, _)

/-- Row 128 a + i of a [512, ·] array, for a block number a read modulo 4. -/
abbrev rowOf (a : ℕ) (i : Fin 128) : Fin 512 := ⟨128 * (a % 4) + i.val, by omega⟩
/-- Column 128 s + k of a [·, 1024] array, for a tile number s read modulo 8. -/
abbrev colOf (s : ℕ) (k : Fin 128) : Fin 1024 := ⟨128 * (s % 8) + k.val, by omega⟩

theorem iblk1_0_apply (c : Dev nD) (t : Fin cfg1.N) (j k : Fin 128) :
    iblk1 V c 0 t (ix2 j k) = V c main_v5 (ix2 (rowOf (t.val / 8) j) (colOf t.val k)) := by
  obtain ⟨e0, e1, -⟩ := idx1 t
  show V c main_v5 (((cfg1.win 0).blk t).view.emb (ix2 j k)) = _
  refine congrArg _ ?_
  funext a; apply Fin.ext
  match a with
  | ⟨0, _⟩ => show win1_0.index t (0 : Fin 2) * 128 + 1 * j.val = 128 * ((t.val / 8) % 4) + j.val; omega
  | ⟨1, _⟩ => show win1_0.index t (1 : Fin 2) * 128 + 1 * k.val = 128 * (t.val % 8) + k.val; omega

theorem iblk1_1_apply (c : Dev nD) (t : Fin cfg1.N) (i k : Fin 128) :
    iblk1 V c 1 t (ix2 i k) = V c main_v6 (ix2 (rowOf (t.val / 32) i) (colOf t.val k)) := by
  obtain ⟨-, -, e0, e1, -⟩ := idx1 t
  show V c main_v6 (((cfg1.win 1).blk t).view.emb (ix2 i k)) = _
  refine congrArg _ ?_
  funext a; apply Fin.ext
  match a with
  | ⟨0, _⟩ => show win1_1.index t (0 : Fin 2) * 128 + 1 * i.val = 128 * ((t.val / 32) % 4) + i.val; omega
  | ⟨1, _⟩ => show win1_1.index t (1 : Fin 2) * 128 + 1 * k.val = 128 * (t.val % 8) + k.val; omega

theorem iblk1_2_apply (c : Dev nD) (t : Fin cfg1.N) (u : Fin 1) (k : Fin 128) :
    iblk1 V c 2 t (ix2 u k) = V c main_v7 (ix2 (0 : Fin 1) (colOf t.val k)) := by
  obtain ⟨-, -, -, -, e0, e1, -⟩ := idx1 t
  show V c main_v7 (((cfg1.win 2).blk t).view.emb (ix2 u k)) = _
  refine congrArg _ ?_
  funext a; apply Fin.ext
  match a with
  | ⟨0, _⟩ => show win1_2.index t (0 : Fin 2) * 1 + 1 * u.val = 0; omega
  | ⟨1, _⟩ => show win1_2.index t (1 : Fin 2) * 128 + 1 * k.val = 128 * (t.val % 8) + k.val; omega

theorem iblk1_3_apply (c : Dev nD) (t : Fin cfg1.N) (r : Fin 2) (k : Fin 128) :
    iblk1 V c 3 t (ix2 r k) = V c main_arg3 (ix2 r (colOf t.val k)) := by
  obtain ⟨-, -, -, -, -, -, e0, e1, -⟩ := idx1 t
  show V c main_arg3 (((cfg1.win 3).blk t).view.emb (ix2 r k)) = _
  refine congrArg _ ?_
  funext a; apply Fin.ext
  match a with
  | ⟨0, _⟩ => show win1_3.index t (0 : Fin 2) * 2 + 1 * r.val = r.val; omega
  | ⟨1, _⟩ => show win1_3.index t (1 : Fin 2) * 128 + 1 * k.val = 128 * (t.val % 8) + k.val; omega

theorem iblk1_4_apply (c : Dev nD) (t : Fin cfg1.N) (u : Fin 1) (r : Fin 2) :
    iblk1 V c 4 t (ix2 u r) = V c main_v8 (ix2 (0 : Fin 1) r) := by
  obtain ⟨-, -, -, -, -, -, -, -, e0, e1, -⟩ := idx1 t
  show V c main_v8 (((cfg1.win 4).blk t).view.emb (ix2 u r)) = _
  refine congrArg _ ?_
  funext a; apply Fin.ext
  match a with
  | ⟨0, _⟩ => show win1_4.index t (0 : Fin 2) * 1 + 1 * u.val = 0; omega
  | ⟨1, _⟩ => show win1_4.index t (1 : Fin 2) * 2 + 1 * r.val = r.val; omega

/-- Where the output block of point `t` sits in the logits array. -/
theorem emb5_apply (t : Fin cfg1.N) (i j : Fin 128) (r : Fin 2) :
    ((cfg1.win 5).blk t).view.emb (ix3 i j r) = ix3 (rowOf (t.val / 32) i) (rowOf (t.val / 8) j) r := by
  obtain ⟨-, -, -, -, -, -, -, -, -, -, e0, e1, e2⟩ := idx1 t
  funext a; apply Fin.ext
  match a with
  | ⟨0, _⟩ => show win1_5.index t (0 : Fin 3) * 128 + 1 * i.val = 128 * ((t.val / 32) % 4) + i.val; omega
  | ⟨1, _⟩ => show win1_5.index t (1 : Fin 3) * 128 + 1 * j.val = 128 * ((t.val / 8) % 4) + j.val; omega
  | ⟨2, _⟩ => show win1_5.index t (2 : Fin 3) * 2 + 1 * r.val = r.val; omega

/-- An index of the logits array is in point `t`'s block iff each coordinate is in the block's range. -/
theorem mem_blk5 (t : Fin cfg1.N) (i : S512x512x2.Idx) :
    i ∈ ((cfg1.win 5).blk t).view.set ↔ ∀ a : Fin 3, win1_5.index t a * S128x128x2.size a ≤ (i a).val ∧ (i a).val < win1_5.index t a * S128x128x2.size a + S128x128x2.size a := by
  show i ∈ ((View.whole main_v9).slice (win1_5.rect t)).set ↔ _
  rw [View.set_slice_whole, Rect.mem_set_unit]
  exact Iff.rfl

/-- Every block of the logits array is the block of some point that writes back. -/
theorem idx_onto5 : ∀ (q0 q1 : Fin 4), ∃ t : Fin cfg1.N, t.val % 8 = 7 ∧ win1_5.index t = ![q0.val, q1.val, 0] :=
  (by decide +kernel : ∀ (q0 q1 : Fin 4), ∃ t : Fin grid1.N, t.val % 8 = 7 ∧ win1_5.index t = ![q0.val, q1.val, 0])

/-- The blocks written back tile the logits array. -/
theorem cover5 (i : S512x512x2.Idx) : ∃ t : Fin cfg1.N, (cfg1.win 5).flush t = true ∧ i ∈ ((cfg1.win 5).blk t).view.set := by
  have hi0 : (i 0).val < 512 := (i 0).isLt
  have hi1 : (i 1).val < 512 := (i 1).isLt
  have hi2 : (i 2).val < 2 := (i 2).isLt
  obtain ⟨t, h7, ht⟩ := idx_onto5 ⟨(i 0).val / 128, by omega⟩ ⟨(i 1).val / 128, by omega⟩
  have q0 : win1_5.index t (0 : Fin 3) = (i 0).val / 128 := congrFun ht 0
  have q1 : win1_5.index t (1 : Fin 3) = (i 1).val / 128 := congrFun ht 1
  have q2 : win1_5.index t (2 : Fin 3) = 0 := congrFun ht 2
  refine ⟨t, (flush1_5 t).mpr h7, ?_⟩
  rw [mem_blk5]
  intro a
  match a with
  | ⟨0, _⟩ => show win1_5.index t (0 : Fin 3) * 128 ≤ (i 0).val ∧ (i 0).val < win1_5.index t (0 : Fin 3) * 128 + 128; omega
  | ⟨1, _⟩ => show win1_5.index t (1 : Fin 3) * 128 ≤ (i 1).val ∧ (i 1).val < win1_5.index t (1 : Fin 3) * 128 + 128; omega
  | ⟨2, _⟩ => show win1_5.index t (2 : Fin 3) * 2 ≤ (i 2).val ∧ (i 2).val < win1_5.index t (2 : Fin 3) * 2 + 2; omega

end Cert.KernelIdeal.Hand

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibMergeRows.lean ====
/-
  A reshape that merges the two leading axes of a three-axis array into one, or splits them again, read at coordinates.

  Row-major order puts entry (p, q, k) of an [a, b, c] array at position (p·b + q)·c + k, and entry (r, k) of an [n, c]
  array at r·c + k; a reshape keeps positions.  So with r = p·b + q the two arrays hold the same value at (p, q, k) and
  (r, k), in either direction.  The row count n is a parameter of its own (with n = a·b implied by the reshape being
  legal), so that the lemmas apply to shapes written with literal sizes.
-/
import Idealize.ShloMosaic.Lib.Pipeline.Value
import Idealize.ShloMosaic.Lib.ValueIdx

namespace Cert.LibMergeRows

open Idealize.ShloMosaic Idealize.ShloMosaic.ValueIdx

variable {α : Type}

/-- An [a, b, c] array reshaped to [n, c] reads, at (r, k) with r = p·b + q, the operand at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- An [n, c] array reshaped to [a, b, c] reads, at (p, q, k), the operand at (r, k) with r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.LibMergeRows
-- ==== Proof.LibRank3Axes.lean ====
/-
  A RANK-3 ARRAY `[a, b, c]` read at an index given by coordinates, for the three layout steps that single out or
  forget ONE of its outer axes:

  • a slice along the LAST axis from offset `o` reads, at `(i, j, t)`, the operand at `(i, j, o + t)` (the companion of
    the library's middle-axis slice);
  • a broadcast of `[a, b, 1]` to `[a, b, c]` reads, at `(i, j, t)`, the operand at `(i, j, 0)`: the last coordinate is
    forgotten;
  • a broadcast of `[1, b, c]` to `[a, b, c]` reads, at `(t, i, j)`, the operand at `(0, i, j)`: the first coordinate is
    forgotten.

  A kept axis whose extent happens to be 1 has the coordinate 0 in any case, so no side condition on the extents is needed.
  General in the extents and in the element type; nothing here mentions a program.
-/
import Idealize.ShloMosaic.Lib.Pipeline.Value
import Idealize.ShloMosaic.Lib.ValueIdx

namespace Cert.LibRank3Axes

open Idealize.ShloMosaic Idealize.ShloMosaic.ValueIdx

variable {α : Type}

/-- A rank-3 array cut along its last axis from `o` reads, at `(i, j, t)`, the source at `(i, j, k)` with `k = o + t`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (i : Fin n0) (j : Fin n1) (t : Fin m) (k : Fin n2) (hk : k.val = o + t.val) :
    extractStridedSlice ⟨3, ![n0, n1, m]⟩ ![0, 0, o] X h (ix3 i j t) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array broadcast to `[a, b, c]` reads, at `(i, j, t)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (t : Fin c) :
    broadcastTo ⟨3, ![a, b, c]⟩ v h (ix3 i j t) = v (ix3 i j (0 : Fin 1)) := by
  refine broadcastTo_apply v h (ix3 i j t) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(t, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (t : Fin a) (i : Fin b) (j : Fin c) :
    broadcastTo ⟨3, ![a, b, c]⟩ v h (ix3 t i j) = v (ix3 (0 : Fin 1) i j) := by
  refine broadcastTo_apply v h (ix3 t i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibRank3Axes
-- ==== Proof.LibMiddleAxis.lean ====
/-
  A UNIT AXIS IN THE MIDDLE, read at an index given by coordinates: the two layout steps by which a matrix `[a, b]` is
  spread along a new middle axis to `[a, c, b]` (`v[:, None, :]` broadcast against an array with a middle axis).

  • The shape cast `[a, b] → [a, 1, b]` keeps the row-major position: entry `(i, 0, j)` of the result is entry `(i, j)` of
    the operand, because `(i · 1 + 0) · b + j = i · b + j`.
  • The broadcast `[a, 1, b] → [a, c, b]` reads, at `(i, t, j)`, the operand at `(i, 0, j)`: the middle coordinate is
    forgotten, the outer ones kept (when `a` or `b` is itself 1 the kept coordinate is 0 in any case).
  • Together: the spread matrix at `(i, t, j)` is the matrix at `(i, j)`, whatever `t`.

  General in the extents and in the element type; nothing here mentions a program.
-/
import Idealize.ShloMosaic.Lib.Pipeline.Value
import Idealize.ShloMosaic.Lib.ValueIdx

namespace Cert.LibMiddleAxis

open Idealize.ShloMosaic Idealize.ShloMosaic.ValueIdx

variable {α : Type}

/-- An `[a, b]` array cast to `[a, 1, b]` reads, at `(i, u, j)`, the operand at `(i, j)`: the two indices have the same
    row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, t, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (t : Fin c) (j : Fin b) :
    broadcastTo ⟨3, ![a, c, b]⟩ v h (ix3 i t j) = v (ix3 i (0 : Fin 1) j) := by
  refine broadcastTo_apply v h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A matrix spread along a new middle axis reads, at `(i, t, j)`, the matrix at `(i, j)`. -/
theorem spread_middle_apply {a c b : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (t : Fin c) (j : Fin b) :
    broadcastTo ⟨3, ![a, c, b]⟩ (shapeCast ⟨3, ![a, 1, b]⟩ x hc) hb (ix3 i t j) = x (ix2 i j) :=
  (broadcastTo_a1b_acb_apply _ hb i t j).trans (shapeCast_ab_a1b_apply x hc i 0 j)

end Cert.LibMiddleAxis
-- ==== Proof.PayPair.lean ====
/-
  The pairwise kernel's three stored values, read entry by entry on the extended reals.

  The kernel keeps a running [128, 128, 2] block of partial sums.  At the first hidden tile it stores zero
  (`pay1_apply`); at every hidden tile it adds, to entry (i, j, c), the sum over the tile's 128 hidden units h of
  tanh((b(i, h) + a(j, h)) + bias(h)) · w(c, h) (`pay2_apply`); after the last tile it adds the output bias
  (`pay3_apply`).  Nothing is rounded on the extended reals, so the narrowing steps are the identity, and each
  reshape, broadcast and transpose only renames the entry that is read:

  • b : [128, 128] is viewed [128, 1, 128] and spread along the middle axis, so entry (i, j, h) reads b(i, h);
  • a : [128, 128] is viewed [1, 128, 128] and spread along the first axis, so entry (i, j, h) reads a(j, h);
  • bias : [1, 128] is viewed [128], then [1, 1, 128], and spread along both outer axes, so entry (i, j, h) reads bias(0, h);
  • the hidden block [128, 128, 128] is viewed [16384, 128] with row i · 128 + j, multiplied by w transposed, and the
    [16384, 2] product is viewed [128, 128, 2] again: entry (i, j, c) reads row i · 128 + j, column c.
-/
import proofs.«166932_j51814485459081_1_alg».proof.Proof.Gen.KernelIdeal.Skeleton
import proofs.«166932_j51814485459081_1_alg».proof.Proof.LibPlainDot
import proofs.«166932_j51814485459081_1_alg».proof.Proof.LibMergeRows
import proofs.«166932_j51814485459081_1_alg».proof.Proof.LibRank3Axes
import proofs.«166932_j51814485459081_1_alg».proof.Proof.LibMiddleAxis
import Idealize.ShloMosaic.Lib.ValueLayout
import Idealize.ShloMosaic.PureOps.Ideal.Laws

noncomputable section

open scoped BigOperators

namespace Cert.KernelIdeal.Pay

open Cert.KernelIdeal Idealize.ShloMosaic Idealize.ShloMosaic.ValueIdx

/-! ## The first tile's store: zero -/

/-- The block stored at the first hidden tile is zero at every entry. -/
theorem pay1_apply (i j : Fin 128) (c : Fin 2) : Gen.k1_pay1 (F := Ideal) (ix3 i j c) = 0 := by
  unfold Gen.k1_pay1
  rw [shapeCast_self]
  exact Ideal.ofBits_zero_f32

/-! ## The bias row spread over both outer axes -/

/-- A [1, 1, c] array spread to [a, b, c] reads, at (i, j, h), the operand at (0, 0, h). -/
theorem broadcastTo_11c_abc_apply {α : Type} {a b c : ℕ} (v : (⟨3, ![1, 1, c]⟩ : Shape).Idx → α)
    (h : (⟨3, ![1, 1, c]⟩ : Shape).Broadcasts ⟨3, ![a, b, c]⟩) (i : Fin a) (j : Fin b) (t : Fin c) :
    broadcastTo ⟨3, ![a, b, c]⟩ v h (ix3 i j t) = v (ix3 (0 : Fin 1) (0 : Fin 1) t) := by
  refine broadcastTo_apply v h (ix3 i j t) (ix3 (0 : Fin 1) (0 : Fin 1) t) fun ax => ?_
  match ax with
  | ⟨0, _⟩ => rfl
  | ⟨1, _⟩ => rfl
  | ⟨2, _⟩ =>
    show t.val = if c = 1 then 0 else t.val
    split
    · have := t.isLt; omega
    · rfl

/-- An [a] array viewed [1, 1, a] reads, at (u, w, t), the operand at t. -/
theorem shapeCast_a_11a_apply {α : Type} {a : ℕ} (x : (⟨1, ![a]⟩ : Shape).Idx → α)
    (h : (⟨1, ![a]⟩ : Shape).ShapeCasts ⟨3, ![1, 1, a]⟩) (u w : Fin 1) (t : Fin a) :
    shapeCast ⟨3, ![1, 1, a]⟩ x h (ix3 u w t) = x (ix1 t) :=
  shapeCast_apply x h _ _ (by
    have hu : u.val = 0 := by omega
    have hw : w.val = 0 := by omega
    rw [Shape.rowMajor_val_three, Shape.rowMajor_val_one]
    show t.val = (u.val * 1 + w.val) * a + t.val
    rw [hu, hw, Nat.zero_mul, Nat.zero_add])

/-! ## The last tile's store: the output bias added -/

/-- The block stored after the last hidden tile is the running block plus the output bias of its column. -/
theorem pay3_apply (v33 : Vec Ideal S1x2 .f32) (v35 : Vec Ideal S128x128x2 .f32) (i j : Fin 128) (c : Fin 2) :
    Gen.k1_pay3 (F := Ideal) v33 v35 (ix3 i j c) = v35 (ix3 i j c) + v33 (ix2 0 c) := by
  unfold Gen.k1_pay3
  show v35 (ix3 i j c) + broadcastTo S128x128x2 (shapeCast S1x1x2 (shapeCast S2 v33 Gen.shapeCasts_S1x2_S2)
    Gen.shapeCasts_S2_S1x1x2) Gen.broadcasts_S1x1x2_S128x128x2 (ix3 i j c) = _
  refine congrArg (v35 (ix3 i j c) + ·) ?_
  exact (broadcastTo_11c_abc_apply _ _ i j c).trans
    ((shapeCast_a_11a_apply _ _ 0 0 c).trans (shapeCast_1a_a_apply _ _ c))

/-! ## Every tile's store: the tile's share of the sum over hidden units -/

/-- The argument of the hyperbolic tangent at (i, j, h): the second projection's row i plus the first projection's row j,
    at hidden unit h, plus the hidden bias. -/
theorem preact_apply (v3 v5 : FVec Ideal S128x128 .f32) (v7 : FVec Ideal S1x128 .f32) (i j h : Fin 128) :
    addf (F := Ideal) (addf (F := Ideal)
        (broadcastTo S128x128x128 (shapeCast S128x1x128 v5 Gen.shapeCasts_S128x128_S128x1x128)
          Gen.broadcasts_S128x1x128_S128x128x128)
        (broadcastTo S128x128x128 (shapeCast S1x128x128 v3 Gen.shapeCasts_S128x128_S1x128x128)
          Gen.broadcasts_S1x128x128_S128x128x128))
      (broadcastTo S128x128x128 (shapeCast S1x1x128 (shapeCast S128 v7 Gen.shapeCasts_S1x128_S128)
        Gen.shapeCasts_S128_S1x1x128) Gen.broadcasts_S1x1x128_S128x128x128) (ix3 i j h)
      = (v5 (ix2 i h) + v3 (ix2 j h)) + v7 (ix2 0 h) := by
  rw [addf_apply, addf_apply]
  rw [Cert.LibMiddleAxis.spread_middle_apply v5 _ _ i j h]
  rw [(Cert.LibRank3Axes.broadcastTo_1bc_abc_apply _ _ i j h).trans (shapeCast_ab_1ab_apply v3 _ 0 j h)]
  rw [(broadcastTo_11c_abc_apply _ _ i j h).trans
    ((shapeCast_a_11a_apply _ _ 0 0 h).trans (shapeCast_1a_a_apply v7 _ h))]

/-- The row of the [16384, ·] views that holds the pair (i, j): i · 128 + j. -/
def pairRow (i j : Fin 128) : Fin 16384 := ⟨i.val * 128 + j.val, by have := i.isLt; have := j.isLt; omega⟩

/-- The block stored at every hidden tile: the running block plus, at (i, j, c), the sum over the tile's hidden units h
    of tanh((b(i, h) + a(j, h)) + bias(h)) · w(c, h), where `v5` holds b, `v3` holds a, `v7` the hidden bias and `v19` w. -/
theorem pay2_apply (v3 v5 : Vec Ideal S128x128 .f32) (v7 : Vec Ideal S1x128 .f32) (v19 : Vec Ideal S2x128 .f32)
    (v25 : Vec Ideal S128x128x2 .f32) (i j : Fin 128) (c : Fin 2) :
    Gen.k1_pay2 (F := Ideal) v3 v5 v7 v19 v25 (ix3 i j c)
      = v25 (ix3 i j c)
        + ∑ h : Fin 128, Ideal.tanh ((v5 (ix2 i h) + v3 (ix2 j h)) + v7 (ix2 0 h)) * v19 (ix2 c h) := by
  unfold Gen.k1_pay2
  dsimp only
  rw [shapeCast_self, shapeCast_self v3, shapeCast_self v5, addf_apply]
  refine congrArg (v25 (ix3 i j c) + ·) ?_
  refine (Cert.LibMergeRows.shapeCast_nc_abc_apply _ _ i j c (pairRow i j) rfl).trans ?_
  refine (Cert.Lib.PlainDot.matmul_plain_zero_apply (M := 16384) (K := 128) (N := 2) none _ _ (pairRow i j) c).trans ?_
  refine Finset.sum_congr rfl fun h _ => ?_
  refine congrArg₂ (· * ·) ?_ ?_
  · refine (Cert.LibMergeRows.shapeCast_abc_nc_apply _ _ i j h (pairRow i j) rfl).trans ?_
    exact congrArg Ideal.tanh (preact_apply v3 v5 v7 i j h)
  · exact transpose_ix2_apply _ _ h c

end Cert.KernelIdeal.Pay

end
-- ==== Proof.RefSpec.lean ====
/-
  The reference's result as one index-by-index function of its five argument arrays, in textbook form.

  With x : [1, 512, 1024], W1 : [1024, 2048], b1 : [1024], W2 : [2, 1024], b2 : [2], all over the extended reals:

    aproj l o    = Σ h < 1024, x[0, l, h] · W1[o, h]                 (the left half of W1's columns)
    bproj l o    = Σ h < 1024, x[0, l, h] · W1[o, 1024 + h]          (the right half of W1's columns)
    hidden i j h = tanh ((aproj j h + bproj i h) + b1[h])
    logit i j c  = (Σ h < 1024, hidden i j h · W2[c, h]) + b2[c]
    Gref[0, i, j, c] = (logit i j c + logit j i c) / 2

  The additions are associated as the reference program performs them, and the quotient is the ideal instance's
  division by the extended real the pattern of 2.0 denotes, which is the real 2 (`ofBits_two`); that division is the
  product with 1/2 on every extended real (`div_two`).
-/
import Idealize.ShloMosaic.PureOps.Ideal
import Idealize.ShloMosaic.Lib.ValueIdx

noncomputable section

open scoped BigOperators

namespace Cert.RefSide

open Idealize.ShloMosaic Idealize.ShloMosaic.ValueIdx

/-! ## The shapes of the arguments and of the result -/

abbrev S1x512x1024 : Shape := ⟨3, ![1, 512, 1024]⟩
abbrev S1024x2048 : Shape := ⟨2, ![1024, 2048]⟩
abbrev S1024 : Shape := ⟨1, ![1024]⟩
abbrev S2x1024 : Shape := ⟨2, ![2, 1024]⟩
abbrev S2 : Shape := ⟨1, ![2]⟩
abbrev S1x512x512x2 : Shape := ⟨4, ![1, 512, 512, 2]⟩

/-! ## The two halves of W1's column range -/

/-- Column `h` of the left half of a 2048-column array. -/
abbrev colLo (h : Fin 1024) : Fin 2048 := ⟨h.val, by have := h.isLt; omega⟩
/-- Column `h` of the right half of a 2048-column array: column `1024 + h`. -/
abbrev colHi (h : Fin 1024) : Fin 2048 := ⟨1024 + h.val, by have := h.isLt; omega⟩

/-! ## The function -/

/-- `aproj l o = Σ h, x[0, l, h] · W1[o, h]`: row `l` of x against row `o` of the left half of W1. -/
def aproj (x : S1x512x1024.Idx → EReal) (W1 : S1024x2048.Idx → EReal) (l : Fin 512) (o : Fin 1024) : EReal :=
  ∑ h : Fin 1024, x (ix3 (0 : Fin 1) l h) * W1 (ix2 o (colLo h))

/-- `bproj l o = Σ h, x[0, l, h] · W1[o, 1024 + h]`: row `l` of x against row `o` of the right half of W1. -/
def bproj (x : S1x512x1024.Idx → EReal) (W1 : S1024x2048.Idx → EReal) (l : Fin 512) (o : Fin 1024) : EReal :=
  ∑ h : Fin 1024, x (ix3 (0 : Fin 1) l h) * W1 (ix2 o (colHi h))

/-- `hidden i j h = tanh ((aproj j h + bproj i h) + b1[h])`: the column token `j` through the left half, the row
    token `i` through the right half, then the bias. -/
def hidden (x : S1x512x1024.Idx → EReal) (W1 : S1024x2048.Idx → EReal) (b1 : S1024.Idx → EReal)
    (i j : Fin 512) (h : Fin 1024) : EReal :=
  Ideal.tanh ((aproj x W1 j h + bproj x W1 i h) + b1 (ix1 h))

/-- `logit i j c = (Σ h, hidden i j h · W2[c, h]) + b2[c]`. -/
def logit (x : S1x512x1024.Idx → EReal) (W1 : S1024x2048.Idx → EReal) (b1 : S1024.Idx → EReal)
    (W2 : S2x1024.Idx → EReal) (b2 : S2.Idx → EReal) (i j : Fin 512) (c : Fin 2) : EReal :=
  (∑ h : Fin 1024, hidden x W1 b1 i j h * W2 (ix2 c h)) + b2 (ix1 c)

/-- The result at the pair `(i, j)` and class `c`: the mean of the logit and its transpose, the quotient by 2 being
    the ideal instance's division. -/
def core (x : S1x512x1024.Idx → EReal) (W1 : S1024x2048.Idx → EReal) (b1 : S1024.Idx → EReal)
    (W2 : S2x1024.Idx → EReal) (b2 : S2.Idx → EReal) (i j : Fin 512) (c : Fin 2) : EReal :=
  Ideal.div (logit x W1 b1 W2 b2 i j c + logit x W1 b1 W2 b2 j i c) (2 : EReal)

/-- The reference's result array as a function of its five argument arrays: at `[0, i, j, c]` it is `core i j c`. -/
def Gref (x : S1x512x1024.Idx → EReal) (W1 : S1024x2048.Idx → EReal) (b1 : S1024.Idx → EReal)
    (W2 : S2x1024.Idx → EReal) (b2 : S2.Idx → EReal) : S1x512x512x2.Idx → EReal :=
  fun idx => core x W1 b1 W2 b2 ⟨(idx 1).val, (idx 1).isLt⟩ ⟨(idx 2).val, (idx 2).isLt⟩ ⟨(idx 3).val, (idx 3).isLt⟩

/-- `Gref` at an index given by its coordinates. -/
theorem Gref_apply (x : S1x512x1024.Idx → EReal) (W1 : S1024x2048.Idx → EReal) (b1 : S1024.Idx → EReal)
    (W2 : S2x1024.Idx → EReal) (b2 : S2.Idx → EReal) (a : Fin 1) (i j : Fin 512) (c : Fin 2) :
    Gref x W1 b1 W2 b2 (ix4 a i j c)
      = Ideal.div (logit x W1 b1 W2 b2 i j c + logit x W1 b1 W2 b2 j i c) (2 : EReal) := rfl

/-- `Gref` at any index, by its coordinates. -/
theorem Gref_eq_core (x : S1x512x1024.Idx → EReal) (W1 : S1024x2048.Idx → EReal) (b1 : S1024.Idx → EReal)
    (W2 : S2x1024.Idx → EReal) (b2 : S2.Idx → EReal) (idx : S1x512x512x2.Idx) :
    Gref x W1 b1 W2 b2 idx
      = core x W1 b1 W2 b2 ⟨(idx 1).val, (idx 1).isLt⟩ ⟨(idx 2).val, (idx 2).isLt⟩ ⟨(idx 3).val, (idx 3).isLt⟩ := rfl

/-! ## The divisor -/

/-- The pattern of `2.0` denotes the real 2. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; rfl

/-- The ideal division by 2 is the product with 1/2, at the infinities too. -/
theorem div_two (s : EReal) : Ideal.div s (2 : EReal) = s * ((1 / 2 : ℝ) : EReal) :=
  Ideal.div_coe (y := 2) (by norm_num) s

/-- The mean as a product: `core i j c = (logit i j c + logit j i c) · (1/2)`. -/
theorem core_eq_mul (x : S1x512x1024.Idx → EReal) (W1 : S1024x2048.Idx → EReal) (b1 : S1024.Idx → EReal)
    (W2 : S2x1024.Idx → EReal) (b2 : S2.Idx → EReal) (i j : Fin 512) (c : Fin 2) :
    core x W1 b1 W2 b2 i j c
      = (logit x W1 b1 W2 b2 i j c + logit x W1 b1 W2 b2 j i c) * ((1 / 2 : ℝ) : EReal) :=
  div_two _

end Cert.RefSide

end
-- ==== Proof.KerSpec.lean ====
/-
  The kernel's result as one index-by-index function of its five argument arrays, in the order the kernel computes.

  With `aproj`, `bproj` the two projections of Proof/RefSpec.lean, the hidden axis of length 1024 is walked in 8
  consecutive tiles of 128 columns, column `k` of tile `s` being column `128 s + k`:

    term i j c h  = tanh ((bproj i h + aproj j h) + b1[h]) · W2[c, h]     (the row token's projection first)
    tile i j c s  = Σ k < 128, term i j c (128 s + k)
    accR i j c n  = ((0 + tile 0) + tile 1) + … + tile (n − 1)             (the accumulator after n tiles)
    klogit i j c  = accR i j c 8 + b2[c]
    Gker[0, i, j, c] = (klogit i j c + klogit j i c) · (the extended real the pattern of 0.5 denotes)

  and that pattern denotes the real 1/2 (`half`).
-/
import proofs.«166932_j51814485459081_1_alg».proof.Proof.RefSpec

noncomputable section

open scoped BigOperators

namespace Cert.KerSide

open Cert.RefSide Idealize.ShloMosaic Idealize.ShloMosaic.ValueIdx

/-- Column `k` of tile `s` of the hidden axis: column `128 s + k`. -/
abbrev col (s : Fin 8) (k : Fin 128) : Fin 1024 :=
  ⟨128 * s.val + k.val, by have := s.isLt; have := k.isLt; omega⟩

/-- One hidden column's contribution to the logit of the pair `(i, j)` and class `c`. -/
def term (x : S1x512x1024.Idx → EReal) (W1 : S1024x2048.Idx → EReal) (b1 : S1024.Idx → EReal)
    (W2 : S2x1024.Idx → EReal) (i j : Fin 512) (c : Fin 2) (h : Fin 1024) : EReal :=
  Ideal.tanh ((bproj x W1 i h + aproj x W1 j h) + b1 (ix1 h)) * W2 (ix2 c h)

/-- The contribution of tile `s`: its 128 columns' terms summed. -/
def tile (x : S1x512x1024.Idx → EReal) (W1 : S1024x2048.Idx → EReal) (b1 : S1024.Idx → EReal)
    (W2 : S2x1024.Idx → EReal) (i j : Fin 512) (c : Fin 2) (s : Fin 8) : EReal :=
  ∑ k : Fin 128, term x W1 b1 W2 i j c (col s k)

/-- The accumulator after `n` tiles, starting from zero and adding the tiles in order. -/
def accR (x : S1x512x1024.Idx → EReal) (W1 : S1024x2048.Idx → EReal) (b1 : S1024.Idx → EReal)
    (W2 : S2x1024.Idx → EReal) (i j : Fin 512) (c : Fin 2) : (n : ℕ) → n ≤ 8 → EReal
  | 0, _ => 0
  | n + 1, h => accR x W1 b1 W2 i j c n (Nat.le_of_succ_le h) + tile x W1 b1 W2 i j c ⟨n, h⟩

/-- Before any tile the accumulator is zero. -/
theorem accR_zero (x : S1x512x1024.Idx → EReal) (W1 : S1024x2048.Idx → EReal) (b1 : S1024.Idx → EReal)
    (W2 : S2x1024.Idx → EReal) (i j : Fin 512) (c : Fin 2) (h : 0 ≤ 8) :
    accR x W1 b1 W2 i j c 0 h = 0 := rfl

/-- One more tile adds that tile. -/
theorem accR_succ (x : S1x512x1024.Idx → EReal) (W1 : S1024x2048.Idx → EReal) (b1 : S1024.Idx → EReal)
    (W2 : S2x1024.Idx → EReal) (i j : Fin 512) (c : Fin 2) (n : ℕ) (h : n + 1 ≤ 8) :
    accR x W1 b1 W2 i j c (n + 1) h
      = accR x W1 b1 W2 i j c n (Nat.le_of_succ_le h) + tile x W1 b1 W2 i j c ⟨n, h⟩ := rfl

/-- The logit as the kernel accumulates it: all eight tiles, then the bias. -/
def klogit (x : S1x512x1024.Idx → EReal) (W1 : S1024x2048.Idx → EReal) (b1 : S1024.Idx → EReal)
    (W2 : S2x1024.Idx → EReal) (b2 : S2.Idx → EReal) (i j : Fin 512) (c : Fin 2) : EReal :=
  accR x W1 b1 W2 i j c 8 (le_refl 8) + b2 (ix1 c)

/-- The result at the pair `(i, j)` and class `c`: the logit plus its transpose, times what the pattern of 0.5
    denotes. -/
def kcore (x : S1x512x1024.Idx → EReal) (W1 : S1024x2048.Idx → EReal) (b1 : S1024.Idx → EReal)
    (W2 : S2x1024.Idx → EReal) (b2 : S2.Idx → EReal) (i j : Fin 512) (c : Fin 2) : EReal :=
  (klogit x W1 b1 W2 b2 i j c + klogit x W1 b1 W2 b2 j i c) * Ideal.ofBits .f32 0x3F000000#32

/-- The kernel's result array as a function of its five argument arrays: at `[0, i, j, c]` it is `kcore i j c`. -/
def Gker (x : S1x512x1024.Idx → EReal) (W1 : S1024x2048.Idx → EReal) (b1 : S1024.Idx → EReal)
    (W2 : S2x1024.Idx → EReal) (b2 : S2.Idx → EReal) : S1x512x512x2.Idx → EReal :=
  fun idx => kcore x W1 b1 W2 b2 ⟨(idx 1).val, (idx 1).isLt⟩ ⟨(idx 2).val, (idx 2).isLt⟩ ⟨(idx 3).val, (idx 3).isLt⟩

/-- `Gker` at an index given by its coordinates. -/
theorem Gker_apply (x : S1x512x1024.Idx → EReal) (W1 : S1024x2048.Idx → EReal) (b1 : S1024.Idx → EReal)
    (W2 : S2x1024.Idx → EReal) (b2 : S2.Idx → EReal) (a : Fin 1) (i j : Fin 512) (c : Fin 2) :
    Gker x W1 b1 W2 b2 (ix4 a i j c) = kcore x W1 b1 W2 b2 i j c := rfl

/-- The pattern of `0.5` denotes the real 1/2. -/
theorem half : Ideal.ofBits .f32 0x3F000000#32 = ((1 / 2 : ℝ) : EReal) := by
  simp [Ideal.ofBits, Ideal.ieee, -EReal.coe_mul]; norm_num

end Cert.KerSide

end
-- ==== Proof.KI.PairAcc.lean ====
/-
  The value of the pairwise region at the extended reals. After the body at grid point t = 32 I + 8 J + s the scratch
  accumulator holds, at (i, j, k), the sum of the first s + 1 column tiles of
      tanh ((b-projection (128 I + i, h) + a-projection (128 J + j, h)) + bias h) * weight (k, h),
  each tile 128 consecutive h: a point with s = 0 starts from the zero block and adds tile 0, every later point adds
  its tile to what the point before left. The point with s = 7 stores the accumulator plus the output bias over the
  output block; these blocks tile the logits array, which therefore ends holding the full accumulated logit.
  Stated at any contents `V` of the buffers at the region's entry that read as the projections, biases and weights.
-/
import proofs.«166932_j51814485459081_1_alg».proof.Proof.KI.Pieces
import proofs.«166932_j51814485459081_1_alg».proof.Proof.KI.PairGeom
import proofs.«166932_j51814485459081_1_alg».proof.Proof.PayPair
import proofs.«166932_j51814485459081_1_alg».proof.Proof.KerSpec

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay Cert.KerSide

variable (V : (c : Dev nD) → (b : Ref sig .tc) → Buf (Elt Ideal) ((c : Thread nD τ).loc b)) (c : Dev nD)
variable (x : Cert.RefSide.S1x512x1024.Idx → EReal) (W1 : Cert.RefSide.S1024x2048.Idx → EReal) (b1 : Cert.RefSide.S1024.Idx → EReal)
  (W2 : Cert.RefSide.S2x1024.Idx → EReal) (b2 : Cert.RefSide.S2.Idx → EReal)

/-- One accumulation step over blocks that read as the projections, bias and weights at column tile `s`: the payload
    adds that tile's contraction to the previous accumulator. -/
theorem tile_of_blocks (x0 x1 : Vec Ideal S128x128 .f32) (x2 : Vec Ideal S1x128 .f32) (x3 : Vec Ideal S2x128 .f32)
    (prev : Vec Ideal S128x128x2 .f32) (ri rj : Fin 512) (s : Fin 8) (i j : Fin 128) (k : Fin 2)
    (e0 : ∀ h : Fin 128, x0 (ix2 j h) = Cert.RefSide.aproj x W1 rj (col s h))
    (e1 : ∀ h : Fin 128, x1 (ix2 i h) = Cert.RefSide.bproj x W1 ri (col s h))
    (e2 : ∀ h : Fin 128, x2 (ix2 (0 : Fin 1) h) = b1 (ix1 (col s h)))
    (e3 : ∀ h : Fin 128, x3 (ix2 k h) = W2 (ix2 k (col s h))) :
    k1_pay2 (F := Ideal) x0 x1 x2 x3 prev (ix3 i j k) = prev (ix3 i j k) + tile x W1 b1 W2 ri rj k s := by
  rw [pay2_apply]
  unfold tile term
  refine congrArg (prev (ix3 i j k) + ·) (Finset.sum_congr rfl fun h _ => ?_)
  rw [e0, e1, e2, e3]

theorem accR_cast (i j : Fin 512) (k : Fin 2) (s s' : ℕ) (e : s = s') (h : s ≤ 8) (h' : s' ≤ 8) :
    accR x W1 b1 W2 i j k s h = accR x W1 b1 W2 i j k s' h' := by subst e; rfl
theorem accR_first (i j : Fin 512) (k : Fin 2) (s : ℕ) (hs : s = 0) (h : s + 1 ≤ 8) :
    accR x W1 b1 W2 i j k (s + 1) h = 0 + tile x W1 b1 W2 i j k ⟨s, h⟩ := by subst hs; rfl

theorem outsAt1_cast (n n' : ℕ) (e : n = n') (hn : n < cfg1.N) (hn' : n' < cfg1.N) :
    outsAt1 V c n hn = outsAt1 V c n' hn' := by subst e; rfl

/-- The accumulator after a point that resets it, and after any other point, as payloads of the point's blocks. -/
theorem acc_reset (t : Fin cfg1.N) (h0 : t.val % 8 = 0) :
    (outsAt1 V c t.val t.isLt).2 = k1_pay2 (iblk1 V c 0 t) (iblk1 V c 1 t) (iblk1 V c 2 t) (iblk1 V c 3 t) (k1_pay1 (F := Ideal)) := by
  rw [outsAt1_A V c t h0 (by omega)]
  unfold ptA; dsimp only
  exact sout1_A_0_eq c _ _ _ _ _ _ _ _ _ _ _ _ _ _ _ _ _ _ _ _ _ _
theorem acc_add (t : Fin cfg1.N) (h0 : ¬t.val % 8 = 0) :
    (outsAt1 V c t.val t.isLt).2 = k1_pay2 (iblk1 V c 0 t) (iblk1 V c 1 t) (iblk1 V c 2 t) (iblk1 V c 3 t)
      (outsAt1 V c (t.val - 1) (Nat.lt_of_le_of_lt (Nat.sub_le _ _) t.isLt)).2 := by
  by_cases h1 : t.val % 8 = 7
  · rw [outsAt1_C V c t h0 h1]
    unfold ptC; dsimp only
    exact sout1_C_0_eq c _ _ _ _ _ _ _ _ _ _ _ _ _ _ _ _ _ _ _ _ _ _ _
  · rw [outsAt1_B V c t h0 h1]
    unfold ptB; dsimp only
    exact sout1_B_0_eq c _ _ _ _ _ _ _ _ _ _ _ _ _ _ _ _ _ _ _ _ _ _ _

section
variable (hA : ∀ (l : Fin 512) (o : Fin 1024), V c main_v5 (ix2 l o) = Cert.RefSide.aproj x W1 l o)
  (hB : ∀ (l : Fin 512) (o : Fin 1024), V c main_v6 (ix2 l o) = Cert.RefSide.bproj x W1 l o)
  (h1 : ∀ h : Fin 1024, V c main_v7 (ix2 (0 : Fin 1) h) = b1 (ix1 h))
  (h2 : ∀ (r : Fin 2) (h : Fin 1024), V c main_arg3 (ix2 r h) = W2 (ix2 r h))
  (h3 : ∀ r : Fin 2, V c main_v8 (ix2 (0 : Fin 1) r) = b2 (ix1 r))
include hA hB h1 h2

/-- One step at point `t`: the accumulation payload of the point's blocks adds tile `t % 8` of rows
    128 (t / 32) + i and 128 ((t / 8) % 4) + j. -/
theorem step_at (t : Fin cfg1.N) (prev : Vec Ideal S128x128x2 .f32) (i j : Fin 128) (k : Fin 2) :
    k1_pay2 (F := Ideal) (iblk1 V c 0 t) (iblk1 V c 1 t) (iblk1 V c 2 t) (iblk1 V c 3 t) prev (ix3 i j k)
      = prev (ix3 i j k) + tile x W1 b1 W2 (rowOf (t.val / 32) i) (rowOf (t.val / 8) j) k ⟨t.val % 8, Nat.mod_lt _ (by decide)⟩ :=
  tile_of_blocks x W1 b1 W2 (iblk1 V c 0 t) (iblk1 V c 1 t) (iblk1 V c 2 t) (iblk1 V c 3 t) prev
    (rowOf (t.val / 32) i) (rowOf (t.val / 8) j) ⟨t.val % 8, Nat.mod_lt _ (by decide)⟩ i j k
    (fun h => (iblk1_0_apply V c t j h).trans (hA _ _))
    (fun h => (iblk1_1_apply V c t i h).trans (hB _ _))
    (fun h => (iblk1_2_apply V c t 0 h).trans (h1 _))
    (fun h => (iblk1_3_apply V c t k h).trans (h2 _ _))

/-- THE ACCUMULATOR IN CLOSED FORM: after point `n` it holds the sum of the first `n % 8 + 1` tiles. -/
theorem acc_closed : ∀ (n : ℕ) (hn : n < cfg1.N) (i j : Fin 128) (k : Fin 2),
    (outsAt1 V c n hn).2 (ix3 i j k)
      = accR x W1 b1 W2 (rowOf (n / 32) i) (rowOf (n / 8) j) k (n % 8 + 1) (by omega) := by
  intro n
  induction n with
  | zero =>
    intro hn i j k
    refine (congrFun (acc_reset V c ⟨0, hn⟩ (Nat.zero_mod _)) _).trans ?_
    refine (step_at V c x W1 b1 W2 hA hB h1 h2 ⟨0, hn⟩ _ i j k).trans ?_
    rw [pay1_apply]
    exact (accR_first x W1 b1 W2 _ _ k (0 % 8) (Nat.zero_mod _) (by omega)).symm
  | succ n ih =>
    intro hn i j k
    by_cases h0 : (n + 1) % 8 = 0
    · refine (congrFun (acc_reset V c ⟨n + 1, hn⟩ h0) _).trans ?_
      refine (step_at V c x W1 b1 W2 hA hB h1 h2 ⟨n + 1, hn⟩ _ i j k).trans ?_
      rw [pay1_apply]
      exact (accR_first x W1 b1 W2 _ _ k ((n + 1) % 8) h0 (by omega)).symm
    · refine (congrFun (acc_add V c ⟨n + 1, hn⟩ h0) _).trans ?_
      refine (step_at V c x W1 b1 W2 hA hB h1 h2 ⟨n + 1, hn⟩ _ i j k).trans ?_
      have e32 : n / 32 = (n + 1) / 32 := by omega
      have e8 : n / 8 = (n + 1) / 8 := by omega
      have es : n % 8 + 1 = (n + 1) % 8 := by omega
      have ih' := ih (Nat.lt_of_succ_lt hn) i j k
      rw [e32, e8] at ih'
      have hprev : (outsAt1 V c (n + 1 - 1) (Nat.lt_of_le_of_lt (Nat.sub_le _ _) hn)).2 (ix3 i j k)
          = accR x W1 b1 W2 (rowOf ((n + 1) / 32) i) (rowOf ((n + 1) / 8) j) k ((n + 1) % 8) (by omega) :=
        ih'.trans (accR_cast x W1 b1 W2 _ _ k _ _ es _ _)
      exact congrArg (· + tile x W1 b1 W2 (rowOf ((n + 1) / 32) i) (rowOf ((n + 1) / 8) j) k ⟨(n + 1) % 8, Nat.mod_lt _ (by decide)⟩) hprev

include h3

/-- The logits array the region leaves, index by index. -/
def G9 : S512x512x2.Idx → EReal := fun idx =>
  klogit x W1 b1 W2 b2 ⟨(idx 0).val, (idx 0).isLt⟩ ⟨(idx 1).val, (idx 1).isLt⟩ ⟨(idx 2).val, (idx 2).isLt⟩
omit hA hB h1 h2 h3 in
theorem G9_apply (i j : Fin 512) (k : Fin 2) : G9 x W1 b1 W2 b2 (ix3 i j k) = klogit x W1 b1 W2 b2 i j k := rfl

/-- What a point with innermost coordinate 7 writes back is its block of the logits. -/
theorem flushed5_eq (t : Fin cfg1.N) (hf : (cfg1.win 5).flush t = true) :
    (dat1 V c).flushed 5 t = ((cfg1.win 5).blk t).view.read (Elt Ideal) (G9 x W1 b1 W2 b2) := by
  have h7 : t.val % 8 = 7 := (flush1_5 t).mp hf
  have h0 : ¬t.val % 8 = 0 := by omega
  show (cfg1.win 5).cut (grid1.coords t) ((dat1 V c).after 5 t) = _
  rw [after1_5, outsAt1_C V c t h0 h7]
  unfold ptC; dsimp only
  rw [out1_C_5_eq, ← acc_add V c t h0]
  funext y
  obtain ⟨i, j, k, rfl⟩ : ∃ (i j : Fin 128) (k : Fin 2), y = ix3 i j k := ⟨y 0, y 1, y 2, eq_ix3 y⟩
  show k1_pay3 (F := Ideal) (iblk1 V c 4 t) (outsAt1 V c t.val t.isLt).2 (ix3 i j k) = G9 x W1 b1 W2 b2 (((cfg1.win 5).blk t).view.emb (ix3 i j k))
  rw [emb5_apply, G9_apply, pay3_apply, acc_closed V c x W1 b1 W2 hA hB h1 h2 t.val t.isLt i j k, iblk1_4_apply, h3]
  unfold klogit
  exact congrArg (· + b2 (ix1 k)) (accR_cast x W1 b1 W2 _ _ k _ _ (by omega) _ _)

/-- THE LOGITS ARRAY after the region: the accumulated logit at every index. -/
theorem arr9_of : (dat1 V c).arrAt 5 cfg1.N = G9 x W1 b1 W2 b2 :=
  (dat1 V c).arrAt_eq_of_cover 5 (G9 x W1 b1 W2 b2) (fun t hf => flushed5_eq V c x W1 b1 W2 b2 hA hB h1 h2 h3 t hf) cover5

end

end Cert.KernelIdeal.Hand

end
-- ==== Proof.PayMatmul.lean ====
/-
  The projection kernel's stored value, read entry by entry on the extended reals.

  The kernel multiplies the [512, 1024] activations by the transpose of the stacked [2048, 1024] weights into a zero
  accumulator.  On the extended reals the narrowing of both operands is the identity, a reshape to the same shape
  changes nothing, and the transposed weights read, at (k, o), the weights at (o, k); so entry (p, o) of the product is
  the sum over the 1024 shared coordinates k of x(p, k) · W(o, k).
-/
import proofs.«166932_j51814485459081_1_alg».proof.Proof.Gen.KernelIdeal.Skeleton
import proofs.«166932_j51814485459081_1_alg».proof.Proof.LibPlainDot
import Idealize.ShloMosaic.Lib.ValueLayout
import Idealize.ShloMosaic.PureOps.Ideal.Laws

noncomputable section

open scoped BigOperators

namespace Cert.KernelIdeal.Pay

open Cert.KernelIdeal Idealize.ShloMosaic Idealize.ShloMosaic.ValueIdx

/-- Entry (p, o) of the stored product is the sum over k of the activations at (p, k) times the stacked weights at (o, k). -/
theorem pay0_apply (v0 : Vec Ideal S512x1024 .f32) (v3 : Vec Ideal S2048x1024 .f32) (p : Fin 512) (o : Fin 2048) :
    Gen.k0_pay1 (F := Ideal) v0 v3 (ix2 p o) = ∑ k : Fin 1024, v0 (ix2 p k) * v3 (ix2 o k) := by
  unfold Gen.k0_pay1
  dsimp only
  rw [shapeCast_self v0, shapeCast_self v3]
  refine (Cert.Lib.PlainDot.matmul_plain_zero_apply (M := 512) (K := 1024) (N := 2048) none _ _ p o).trans ?_
  refine Finset.sum_congr rfl fun k _ => ?_
  refine congrArg₂ (· * ·) rfl ?_
  exact transpose_ix2_apply _ _ k o

end Cert.KernelIdeal.Pay

end
-- ==== Proof.KI.ValueProj.lean ====
/-
  The value of the projection region and of the host steps around it, on the extended reals, entry by entry.

  Before the region the host views the activations [1, 512, 1024] as [512, 1024] and stacks the left and right
  halves of the [1024, 2048] weight matrix on the row axis to [2048, 1024].  The region has one grid point and each
  of its three windows is a whole array, so the one write-back writes the whole product array: after the region
  the [512, 2048] product holds, at (l, o), the sum over k of x(l, k) times the stacked weights at (o, k).  Row o of
  the stack is row o of the weight matrix read in its left half, row 1024 + o the same row read in its right half;
  so the left half of the product's columns is the projection through the left half of the weight matrix, the right
  half of its columns the projection through the right half, each summed in the same order as the reference sums.
  After the region the host cuts the product into these two halves and gives the two bias vectors a leading unit
  axis; the output weights are written by nobody.
-/
import proofs.«166932_j51814485459081_1_alg».proof.Proof.KI.MainRun
import proofs.«166932_j51814485459081_1_alg».proof.Proof.KI.Pieces
import proofs.«166932_j51814485459081_1_alg».proof.Proof.HostOpsRead
import proofs.«166932_j51814485459081_1_alg».proof.Proof.PayMatmul
import proofs.«166932_j51814485459081_1_alg».proof.Proof.RefSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-! ## The host steps before the projection region -/

/-- The activations as the region finds them: the [1, 512, 1024] argument viewed [512, 1024]. -/
theorem W1_v0 : (W1 m c (Proc.devRef .tc main_v0) : S512x1024.Idx → EReal)
    = shapeCast S512x1024 (m ((c : Thread nD τ).loc main_arg0)) shapeCasts_S1x512x1024_S512x1024 := by
  dsimp only [W1, W0, hostOps0]
  after_results
  first | done | rfl

/-- The stacked weights as the region finds them: the left half of the weight matrix's columns on top of the right half. -/
theorem W1_v3 : (W1 m c (Proc.devRef .tc main_v3) : S2048x1024.Idx → EReal)
    = concatenate S2048x1024 0
      [⟨S1024x1024, extractStridedSlice S1024x1024 ![0, 0] (m ((c : Thread nD τ).loc main_arg1)) slices_S1024x2048_S1024x1024_0_0⟩,
       ⟨S1024x1024, extractStridedSlice S1024x1024 ![0, 1024] (m ((c : Thread nD τ).loc main_arg1)) slices_S1024x2048_S1024x1024_0_1024⟩]
      concatenates_S1024x1024_S1024x1024_S2048x1024_d0 := by
  dsimp only [W1, W0, hostOps0]
  after_results
  first | done | rfl

/-- The first host steps write neither bias vector nor the output weights. -/
theorem W1_arg2 : W1 m c (Proc.devRef .tc main_arg2) = m ((c : Thread nD τ).loc main_arg2) := by
  dsimp only [W1, W0, hostOps0]
  after_results
  first | done | rfl
theorem W1_arg3 : W1 m c (Proc.devRef .tc main_arg3) = m ((c : Thread nD τ).loc main_arg3) := by
  dsimp only [W1, W0, hostOps0]
  after_results
  first | done | rfl
theorem W1_arg4 : W1 m c (Proc.devRef .tc main_arg4) = m ((c : Thread nD τ).loc main_arg4) := by
  dsimp only [W1, W0, hostOps0]
  after_results
  first | done | rfl

/-! ## The projection region: one grid point, every block a whole array -/

/-- At the one grid point every window's block index is zero on both axes, so each block starts at the array's origin. -/
theorem idx0_zero : ∀ t : Fin cfg0.N,
    (fun a => win0_0.index t a * main_v0.ty.shape.size a) = (fun _ => 0)
    ∧ (fun a => win0_1.index t a * main_v3.ty.shape.size a) = (fun _ => 0)
    ∧ (fun a => win0_2.index t a * main_v4.ty.shape.size a) = (fun _ => 0) :=
  (by decide +kernel : ∀ t : Fin grid0.N, _)

section Region
variable (V : (c : Dev nD) → (b : Ref sig .tc) → Buf (Elt Ideal) ((c : Thread nD τ).loc b))

/-- The activations' block is the whole activations array. -/
theorem iblk0_0 (t : Fin cfg0.N) : iblk0 V c 0 t = V c main_v0 := by
  unfold iblk0
  exact Memref.read_access_unit_zero (Elt Ideal) main_v0 (idx0_zero t).1 (fun a => by rw [congrFun (idx0_zero t).1 a]; simp) (V c main_v0)

/-- The weights' block is the whole stacked-weights array. -/
theorem iblk0_1 (t : Fin cfg0.N) : iblk0 V c 1 t = V c main_v3 := by
  unfold iblk0
  exact Memref.read_access_unit_zero (Elt Ideal) main_v3 (idx0_zero t).2.1 (fun a => by rw [congrFun (idx0_zero t).2.1 a]; simp) (V c main_v3)

/-- What the grid point writes back is the product payload of the two whole input arrays, read through the
    output's block, which is the whole product array. -/
theorem flushed0_2 (t : Fin cfg0.N) (G : Vec Ideal S512x2048 .f32) (hG : G = k0_pay1 (V c main_v0) (V c main_v3)) :
    (dat0 V c).flushed 2 t = ((cfg0.win 2).blk t).view.read (Elt Ideal) G := by
  show (cfg0.win 2).cut (grid0.coords t) ((dat0 V c).after 2 t) = _
  rw [after0_2, out0_2_eq, iblk0_0, iblk0_1, ← hG]
  exact (Memref.read_access_unit_zero (Elt Ideal) main_v4 (idx0_zero t).2.2 (fun a => by rw [congrFun (idx0_zero t).2.2 a]; simp) G).symm

/-- Every entry of the product array lies in the one grid point's output block. -/
theorem cover0_2_arr (i : S512x2048.Idx) : ∃ t : Fin cfg0.N, (cfg0.win 2).flush t = true ∧ i ∈ ((cfg0.win 2).blk t).view.set := by
  refine ⟨t0_0, flush0_2 t0_0, ?_⟩
  show i ∈ ((View.whole main_v4).slice (win0_2.rect t0_0)).set
  rw [View.set_slice_whole, Rect.mem_set_unit]
  intro a
  have h0 : (i 0 : Nat) < 512 := (i 0).isLt
  have h1 : (i 1 : Nat) < 2048 := (i 1).isLt
  match a with
  | ⟨0, _⟩ =>
    show win0_2.index t0_0 0 * win0_2.size 0 ≤ (i 0 : Nat) ∧ (i 0 : Nat) < win0_2.index t0_0 0 * win0_2.size 0 + win0_2.xsize (grid0.coords t0_0) 0
    rw [show win0_2.index t0_0 0 * win0_2.size 0 = 0 from by decide +kernel, show win0_2.xsize (grid0.coords t0_0) 0 = 512 from by decide +kernel]; omega
  | ⟨1, _⟩ =>
    show win0_2.index t0_0 1 * win0_2.size 1 ≤ (i 1 : Nat) ∧ (i 1 : Nat) < win0_2.index t0_0 1 * win0_2.size 1 + win0_2.xsize (grid0.coords t0_0) 1
    rw [show win0_2.index t0_0 1 * win0_2.size 1 = 0 from by decide +kernel, show win0_2.xsize (grid0.coords t0_0) 1 = 2048 from by decide +kernel]; omega

/-- After the region the product array holds the product payload of the two input arrays as the region found them. -/
theorem arr0_2 : (dat0 V c).arrAt 2 cfg0.N = k0_pay1 (V c main_v0) (V c main_v3) :=
  (dat0 V c).arrAt_eq_of_cover 2 (k0_pay1 (V c main_v0) (V c main_v3)) (fun t _ => flushed0_2 c V t _ rfl) cover0_2_arr

end Region

/-- The product array at the region's exit. -/
theorem W2_v4 : (W2 m c (Proc.devRef .tc main_v4) : S512x2048.Idx → EReal)
    = k0_pay1 (F := Ideal) (VR0 m c main_v0) (VR0 m c main_v3) :=
  (W2_arr m c 2).trans (arr0_2 c (VR0 m))

/-- The region's arrays are the activations, the stacked weights and the product: it keeps the bias vectors and the output weights. -/
theorem W2_arg2 : W2 m c (Proc.devRef .tc main_arg2) = m ((c : Thread nD τ).loc main_arg2) :=
  (W2_of_ne m c main_arg2 (by decide)).trans (W1_arg2 m c)
theorem W2_arg3 : W2 m c (Proc.devRef .tc main_arg3) = m ((c : Thread nD τ).loc main_arg3) :=
  (W2_of_ne m c main_arg3 (by decide)).trans (W1_arg3 m c)
theorem W2_arg4 : W2 m c (Proc.devRef .tc main_arg4) = m ((c : Thread nD τ).loc main_arg4) :=
  (W2_of_ne m c main_arg4 (by decide)).trans (W1_arg4 m c)

/-! ## The host steps between the regions -/

/-- The left half of the product's columns, -/
theorem W3_v5 : (W3 m c (Proc.devRef .tc main_v5) : S512x1024.Idx → EReal)
    = extractStridedSlice S512x1024 ![0, 0] (W2 m c (Proc.devRef .tc main_v4)) slices_S512x2048_S512x1024_0_0 := by
  dsimp only [W3, hostOps1]
  after_results
  first | done | rfl

/-- the right half, -/
theorem W3_v6 : (W3 m c (Proc.devRef .tc main_v6) : S512x1024.Idx → EReal)
    = extractStridedSlice S512x1024 ![0, 1024] (W2 m c (Proc.devRef .tc main_v4)) slices_S512x2048_S512x1024_0_1024 := by
  dsimp only [W3, hostOps1]
  after_results
  first | done | rfl

/-- the hidden bias with a leading unit axis, -/
theorem W3_v7 : (W3 m c (Proc.devRef .tc main_v7) : S1x1024.Idx → EReal)
    = shapeCast S1x1024 (W2 m c (Proc.devRef .tc main_arg2)) shapeCasts_S1024_S1x1024 := by
  dsimp only [W3, hostOps1]
  after_results
  first | done | rfl

/-- the output bias with a leading unit axis, -/
theorem W3_v8 : (W3 m c (Proc.devRef .tc main_v8) : S1x2.Idx → EReal)
    = shapeCast S1x2 (W2 m c (Proc.devRef .tc main_arg4)) shapeCasts_S2_S1x2 := by
  dsimp only [W3, hostOps1]
  after_results
  first | done | rfl

/-- and the output weights untouched. -/
theorem W3_arg3 : W3 m c (Proc.devRef .tc main_arg3) = W2 m c (Proc.devRef .tc main_arg3) := by
  dsimp only [W3, hostOps1]
  after_results
  first | done | rfl

/-! ## The projection, entry by entry -/

/-- The activations and the stacked weights as the projection region finds them, and the product array as it leaves it. -/
abbrev projX : S512x1024.Idx → EReal := VR0 m c main_v0
abbrev projW : S2048x1024.Idx → EReal := VR0 m c main_v3
abbrev projOut : S512x2048.Idx → EReal := W2 m c (Proc.devRef .tc main_v4)

/-- Entry (l, o) of the product array is the sum over k of the activations at (l, k) times the stacked weights at (o, k). -/
theorem proj_entry (l : Fin 512) (o : Fin 2048) :
    projOut m c (ix2 l o) = ∑ k : Fin 1024, projX m c (ix2 l k) * projW m c (ix2 o k) :=
  (congrFun (W2_v4 m c) (ix2 l o)).trans (Pay.pay0_apply _ _ l o)

/-- The activations at (l, k) are the argument at (0, l, k). -/
theorem projX_apply (l : Fin 512) (k : Fin 1024) :
    projX m c (ix2 l k) = m ((c : Thread nD τ).loc main_arg0) (ix3 (0 : Fin 1) l k) :=
  (congrFun (W1_v0 m c) (ix2 l k)).trans (Pay.reshape_x_apply _ l k)

/-- Row o of the stacked weights is row o of the weight matrix read in its left half of columns, -/
theorem projW_lo (o k : Fin 1024) :
    projW m c (ix2 (Pay.halfLo o) k) = m ((c : Thread nD τ).loc main_arg1) (ix2 o (Pay.halfLo k)) :=
  (congrFun (W1_v3 m c) _).trans (Pay.stackW_lo_apply _ o k)

/-- and row 1024 + o is row o of the weight matrix read in its right half of columns. -/
theorem projW_hi (o k : Fin 1024) :
    projW m c (ix2 (Pay.halfHi o) k) = m ((c : Thread nD τ).loc main_arg1) (ix2 o (Pay.halfHi k)) :=
  (congrFun (W1_v3 m c) _).trans (Pay.stackW_hi_apply _ o k)

/-! ## What the pairwise region finds -/

/-- Its first input: the projection through the left half of the weight matrix. -/
theorem VR1_v5 (l : Fin 512) (o : Fin 1024) :
    VR1 m c main_v5 (ix2 l o) = Cert.RefSide.aproj (m ((c : Thread nD τ).loc main_arg0)) (m ((c : Thread nD τ).loc main_arg1)) l o := by
  refine (congrFun (W3_v5 m c) (ix2 l o)).trans ?_
  refine (Pay.sliceP_lo_apply _ l o).trans ?_
  refine (proj_entry m c l (Pay.halfLo o)).trans ?_
  unfold Cert.RefSide.aproj
  refine Finset.sum_congr rfl fun k _ => ?_
  rw [projX_apply, projW_lo]

/-- Its second input: the projection through the right half of the weight matrix. -/
theorem VR1_v6 (l : Fin 512) (o : Fin 1024) :
    VR1 m c main_v6 (ix2 l o) = Cert.RefSide.bproj (m ((c : Thread nD τ).loc main_arg0)) (m ((c : Thread nD τ).loc main_arg1)) l o := by
  refine (congrFun (W3_v6 m c) (ix2 l o)).trans ?_
  refine (Pay.sliceP_hi_apply _ l o).trans ?_
  refine (proj_entry m c l (Pay.halfHi o)).trans ?_
  unfold Cert.RefSide.bproj
  refine Finset.sum_congr rfl fun k _ => ?_
  rw [projX_apply, projW_hi]

/-- The hidden bias as a row. -/
theorem VR1_v7 (h : Fin 1024) : VR1 m c main_v7 (ix2 (0 : Fin 1) h) = m ((c : Thread nD τ).loc main_arg2) (ix1 h) :=
  (congrFun (W3_v7 m c) _).trans ((Pay.reshape_b1_apply _ 0 h).trans (congrFun (W2_arg2 m c) (ix1 h)))

/-- The output bias as a row. -/
theorem VR1_v8 (k : Fin 2) : VR1 m c main_v8 (ix2 (0 : Fin 1) k) = m ((c : Thread nD τ).loc main_arg4) (ix1 k) :=
  (congrFun (W3_v8 m c) _).trans ((Pay.reshape_b2_apply _ 0 k).trans (congrFun (W2_arg4 m c) (ix1 k)))

/-- The output weights, as launched. -/
theorem VR1_arg3 : VR1 m c main_arg3 = m ((c : Thread nD τ).loc main_arg3) :=
  (W3_arg3 m c).trans (W2_arg3 m c)

end Cert.KernelIdeal.Hand

end
-- ==== Proof.KI.PairValue.lean ====
/-
  The logits array after the pairwise region, as a function of the program's arguments: the buffers the region is
  entered with read as the two projections (first region and host slices), the reshaped biases and the weights, so the
  region leaves the accumulated logit of the arguments at every index.
-/
import proofs.«166932_j51814485459081_1_alg».proof.Proof.KI.MainRun
import proofs.«166932_j51814485459081_1_alg».proof.Proof.KI.PairAcc
import proofs.«166932_j51814485459081_1_alg».proof.Proof.KI.ValueProj

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem arr9 (m : (ℓ : Loc nD τ sig) → Buf (Elt Ideal) ℓ) (c : Dev nD) (i j : Fin 512) (k : Fin 2) :
    W4 m c (Proc.devRef .tc main_v9) (ix3 i j k)
      = Cert.KerSide.klogit (m ((c : Thread nD τ).loc main_arg0)) (m ((c : Thread nD τ).loc main_arg1)) (m ((c : Thread nD τ).loc main_arg2))
          (m ((c : Thread nD τ).loc main_arg3)) (m ((c : Thread nD τ).loc main_arg4)) i j k := by
  rw [show W4 m c (Proc.devRef .tc main_v9) = (dat1 (VR1 m) c).arrAt 5 cfg1.N from W4_arr m c 5]
  rw [arr9_of (VR1 m) c (m ((c : Thread nD τ).loc main_arg0)) (m ((c : Thread nD τ).loc main_arg1)) (m ((c : Thread nD τ).loc main_arg2))
    (m ((c : Thread nD τ).loc main_arg3)) (m ((c : Thread nD τ).loc main_arg4))
    (VR1_v5 m c) (VR1_v6 m c) (VR1_v7 m c) (fun r h => congrFun (VR1_arg3 m c) _) (VR1_v8 m c)]
  rfl

end Cert.KernelIdeal.Hand

end
-- ==== Proof.Bridge.lean ====
/-
  The kernel's function is the reference's function.

  Three steps, none of which needs a finiteness hypothesis (addition of extended reals is commutative and associative
  everywhere):
  * the accumulator after all eight tiles is the sum of the eight tiles (induction on the number of tiles), and a sum
    over 1024 columns taken in 8 consecutive blocks of 128 is the sum over all of them (the blocks are the fibres of
    the bijection `(s, k) ↦ 128 s + k` between pairs and columns);
  * a column's term differs from the reference's only in the order of the two projections under the hyperbolic
    tangent;
  * the pattern of 0.5 denotes 1/2, and the ideal division by 2 is the product with 1/2.
-/
import proofs.«166932_j51814485459081_1_alg».proof.Proof.KerSpec

noncomputable section

open scoped BigOperators

namespace Cert.KerSide

open Cert.RefSide Idealize.ShloMosaic Idealize.ShloMosaic.ValueIdx

/-- A sum over 1024 columns taken in 8 consecutive blocks of 128 is the sum over all 1024. -/
theorem sum_blocks (f : Fin 1024 → EReal) :
    ∑ s : Fin 8, ∑ k : Fin 128, f (col s k) = ∑ h : Fin 1024, f h := by
  refine (Fintype.sum_prod_type' (fun (s : Fin 8) (k : Fin 128) => f (col s k))).symm.trans ?_
  refine Fintype.sum_equiv (finProdFinEquiv.trans (finCongr (by norm_num : 8 * 128 = 1024))) _ _ ?_
  rintro ⟨s, k⟩
  refine congrArg f (Fin.ext ?_)
  simp [finProdFinEquiv]
  omega

/-- The accumulator after `n` tiles is the sum of the first `n` tiles. -/
theorem accR_eq_sum (x : S1x512x1024.Idx → EReal) (W1 : S1024x2048.Idx → EReal) (b1 : S1024.Idx → EReal)
    (W2 : S2x1024.Idx → EReal) (i j : Fin 512) (c : Fin 2) : ∀ (n : ℕ) (h : n ≤ 8),
    accR x W1 b1 W2 i j c n h = ∑ s : Fin n, tile x W1 b1 W2 i j c ⟨s.val, lt_of_lt_of_le s.isLt h⟩
  | 0, _ => by rw [accR_zero, Finset.univ_eq_empty, Finset.sum_empty]
  | n + 1, h => by
    rw [accR_succ, accR_eq_sum x W1 b1 W2 i j c n (Nat.le_of_succ_le h), Fin.sum_univ_castSucc]
    rfl

/-- A column's term is the reference's hidden value times the weight: the two projections commute under the sum. -/
theorem term_eq (x : S1x512x1024.Idx → EReal) (W1 : S1024x2048.Idx → EReal) (b1 : S1024.Idx → EReal)
    (W2 : S2x1024.Idx → EReal) (i j : Fin 512) (c : Fin 2) (h : Fin 1024) :
    term x W1 b1 W2 i j c h = Cert.RefSide.hidden x W1 b1 i j h * W2 (ix2 c h) := by
  unfold term Cert.RefSide.hidden
  rw [add_comm (bproj x W1 i h) (aproj x W1 j h)]

/-- The logit as the kernel accumulates it is the reference's logit. -/
theorem klogit_eq (x : S1x512x1024.Idx → EReal) (W1 : S1024x2048.Idx → EReal) (b1 : S1024.Idx → EReal)
    (W2 : S2x1024.Idx → EReal) (b2 : S2.Idx → EReal) (i j : Fin 512) (c : Fin 2) :
    klogit x W1 b1 W2 b2 i j c = logit x W1 b1 W2 b2 i j c := by
  unfold klogit logit
  refine congrArg (· + b2 (ix1 c)) ?_
  rw [accR_eq_sum]
  calc ∑ s : Fin 8, tile x W1 b1 W2 i j c ⟨s.val, lt_of_lt_of_le s.isLt (le_refl 8)⟩
      = ∑ s : Fin 8, ∑ k : Fin 128, term x W1 b1 W2 i j c (col s k) := rfl
    _ = ∑ h : Fin 1024, term x W1 b1 W2 i j c h := sum_blocks _
    _ = ∑ h : Fin 1024, Cert.RefSide.hidden x W1 b1 i j h * W2 (ix2 c h) :=
        Finset.sum_congr rfl fun h _ => term_eq x W1 b1 W2 i j c h

/-- The kernel's value at a pair and class is the reference's. -/
theorem kcore_eq (x : S1x512x1024.Idx → EReal) (W1 : S1024x2048.Idx → EReal) (b1 : S1024.Idx → EReal)
    (W2 : S2x1024.Idx → EReal) (b2 : S2.Idx → EReal) (i j : Fin 512) (c : Fin 2) :
    kcore x W1 b1 W2 b2 i j c = core x W1 b1 W2 b2 i j c := by
  unfold kcore
  rw [klogit_eq, klogit_eq, half, core_eq_mul]

/-- The kernel's function of the five argument arrays is the reference's. -/
theorem Gker_eq_Gref (x : S1x512x1024.Idx → EReal) (W1 : S1024x2048.Idx → EReal) (b1 : S1024.Idx → EReal)
    (W2 : S2x1024.Idx → EReal) (b2 : S2.Idx → EReal) :
    Gker x W1 b1 W2 b2 = Gref x W1 b1 W2 b2 := by
  funext idx
  unfold Gker Gref
  exact kcore_eq x W1 b1 W2 b2 _ _ _

end Cert.KerSide

end
-- ==== Proof.KI.Assemble.lean ====
/-
  The kernel's program ends with its result at the kernel's closed form of the five arguments.

  The run of the whole program ends with every unscoped buffer at the last boundary's contents. Read at the result
  buffer, entry `[0, i, j, k]` of those contents is what the pairwise region leaves at `(i, j, k)` plus what it leaves
  at `(j, i, k)`, times what the pattern of 0.5 denotes; and what the region leaves at an index is the logit
  accumulated tile by tile from the arguments as launched. That is `Gker` of the arguments, entry by entry. Read at
  an argument's buffer the last boundary's contents are the launch contents.
-/
import proofs.«166932_j51814485459081_1_alg».proof.Proof.KI.ArgsKept
import proofs.«166932_j51814485459081_1_alg».proof.Proof.KI.ValueTail
import proofs.«166932_j51814485459081_1_alg».proof.Proof.KI.PairValue
import proofs.«166932_j51814485459081_1_alg».proof.Proof.Bridge

noncomputable section

namespace Cert.KernelIdeal.Hand

open Idealize.ShloMosaic Idealize.ShloMosaic.TcCoe Idealize.SL.Sem Idealize.ShloMosaic.ValueIdx

variable (m : (ℓ : Loc nD τ sig) → Buf (Elt Ideal) ℓ)

/-- The result buffer at the return is the kernel's closed form of the five arguments as launched: at `[0, i, j, k]`
    the last host stretch leaves the pairwise region's array at `(i, j, k)` plus the same at `(j, i, k)`, times what the
    pattern of 0.5 denotes, and the pairwise region's array holds the accumulated logit. -/
theorem W5_v14_eq (c : Dev nD) :
    W5 m c (Proc.devRef .tc main_v14) = Cert.KerSide.Gker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext idx
  obtain ⟨u, i, j, k, rfl⟩ : ∃ (u : Fin 1) (i j : Fin 512) (k : Fin 2), idx = ix4 u i j k :=
    ⟨idx 0, idx 1, idx 2, idx 3, eq_ix4 idx⟩
  refine (W5_v14 m c u i j k).trans ?_
  exact congrArg₂ (fun a b : EReal => (a + b) * Ideal.ofBits .f32 0x3F000000#32) (arr9 m c i j k) (arr9 m c j i k)

/-- From any memory with zero counters every weakly fair execution of the kernel's program terminates, nothing
    faulting, with the result buffer at `Gker` of the five arguments as launched, and those arguments unchanged. -/
theorem ker_run (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v14) = Cert.KerSide.Gker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v14 (by decide))).trans (W5_v14_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_main m ρ)

end Cert.KernelIdeal.Hand

end
-- ==== Proof.RefIsSpec.lean ====
/-
  The reference program computes `Cert.RefSide.Gref`.

  The generated reading of the reference gives each of its twenty-two operations at an index in terms of its
  operands at an index. Chasing an index `[0, i, j, c]` of the result back through them — the quotient, the sum with
  the transpose, the bias, the contraction with W2, the hyperbolic tangent, the three-term sum of the two broadcast
  projections and the bias, the two contractions with the halves of W1 and the two column slices — arrives at the
  textbook function of Proof/RefSpec.lean with every addition in the order the program performs it, so each step is an
  equality of indices (coordinate by coordinate) and nothing is reassociated.

  From that, the reference's run (generated: every fair execution terminates with the result at the operations'
  composed term and the arguments unchanged) is restated with the result at `Gref` of the argument arrays, and the
  frame claim of the reference is the run's second half.
-/
import proofs.«166932_j51814485459081_1_alg».proof.Defs
import proofs.«166932_j51814485459081_1_alg».proof.Proof.RefSpec
import proofs.«166932_j51814485459081_1_alg».proof.Proof.Gen.ReferenceIdeal.Read
import proofs.«166932_j51814485459081_1_alg».proof.Proof.Gen.Pre_finite_inputs

noncomputable section

open scoped BigOperators

namespace Cert.RefSide

open Idealize.ShloMosaic Idealize.ShloMosaic.TcCoe Idealize.SL.Sem Idealize.ShloMosaic.ValueIdx
open Cert.ReferenceIdeal.Read

variable (x0 : (⟨Cert.ReferenceIdeal.S1x512x1024, .f32⟩ : BufTy).Contents (Elt Ideal))
  (x1 : (⟨Cert.ReferenceIdeal.S1024x2048, .f32⟩ : BufTy).Contents (Elt Ideal))
  (x2 : (⟨Cert.ReferenceIdeal.S1024, .f32⟩ : BufTy).Contents (Elt Ideal))
  (x3 : (⟨Cert.ReferenceIdeal.S2x1024, .f32⟩ : BufTy).Contents (Elt Ideal))
  (x4 : (⟨Cert.ReferenceIdeal.S2, .f32⟩ : BufTy).Contents (Elt Ideal))

/-! ## The two projections -/

/-- The contraction of x with the left column slice of W1, at `[0, l, o]`. -/
theorem v2_at (l : Fin 512) (o : Fin 1024) :
    val_main_v2 (F := Ideal) x0 x1 (ix3 (0 : Fin 1) l o) = aproj x0 x1 l o := by
  rw [val_main_v2_apply]
  unfold aproj
  refine Finset.sum_congr rfl fun h _ => ?_
  rw [val_main_v0_apply]
  have e1 : lidx_main_v2 (ix3 (0 : Fin 1) l o) h = ix3 (0 : Fin 1) l h := by
    funext a; match a with | ⟨0, _⟩ => rfl | ⟨1, _⟩ => rfl | ⟨2, _⟩ => rfl
  have e2 : idx_main_v0 (ridx_main_v2 (ix3 (0 : Fin 1) l o) h) = ix2 o (colLo h) := by
    funext a; match a with | ⟨0, _⟩ => rfl | ⟨1, _⟩ => rfl
  rw [e1, e2]

/-- The contraction of x with the right column slice of W1, at `[0, l, o]`. -/
theorem v3_at (l : Fin 512) (o : Fin 1024) :
    val_main_v3 (F := Ideal) x0 x1 (ix3 (0 : Fin 1) l o) = bproj x0 x1 l o := by
  rw [val_main_v3_apply]
  unfold bproj
  refine Finset.sum_congr rfl fun h _ => ?_
  rw [val_main_v1_apply]
  have e1 : lidx_main_v3 (ix3 (0 : Fin 1) l o) h = ix3 (0 : Fin 1) l h := by
    funext a; match a with | ⟨0, _⟩ => rfl | ⟨1, _⟩ => rfl | ⟨2, _⟩ => rfl
  have e2 : idx_main_v1 (ridx_main_v3 (ix3 (0 : Fin 1) l o) h) = ix2 o (colHi h) := by
    funext a; match a with | ⟨0, _⟩ => rfl | ⟨1, _⟩ => rfl
  rw [e1, e2]

/-! ## The broadcasts: the left projection along the row token, the right along the column token, the bias along both -/

theorem v6_at (i j : Fin 512) (h : Fin 1024) :
    val_main_v6 (F := Ideal) x0 x1 (ix4 (0 : Fin 1) i j h) = aproj x0 x1 j h := by
  rw [val_main_v6_apply, val_main_v4_apply]
  have e : idx_main_v4 (idx_main_v6 (ix4 (0 : Fin 1) i j h)) = ix3 (0 : Fin 1) j h := by
    funext a; match a with | ⟨0, _⟩ => rfl | ⟨1, _⟩ => rfl | ⟨2, _⟩ => rfl
  rw [e, v2_at]

theorem v7_at (i j : Fin 512) (h : Fin 1024) :
    val_main_v7 (F := Ideal) x0 x1 (ix4 (0 : Fin 1) i j h) = bproj x0 x1 i h := by
  rw [val_main_v7_apply, val_main_v5_apply]
  have e : idx_main_v5 (idx_main_v7 (ix4 (0 : Fin 1) i j h)) = ix3 (0 : Fin 1) i h := by
    funext a; match a with | ⟨0, _⟩ => rfl | ⟨1, _⟩ => rfl | ⟨2, _⟩ => rfl
  rw [e, v3_at]

theorem v10_at (i j : Fin 512) (h : Fin 1024) :
    val_main_v10 (F := Ideal) x2 (ix4 (0 : Fin 1) i j h) = x2 (ix1 h) := by
  rw [val_main_v10_apply, val_main_v9_apply]
  have e : idx_main_v9 (idx_main_v10 (ix4 (0 : Fin 1) i j h)) = ix1 h := by
    funext a; match a with | ⟨0, _⟩ => rfl
  rw [e]

/-! ## The hidden layer -/

theorem v12_at (i j : Fin 512) (h : Fin 1024) :
    val_main_v12 (F := Ideal) x0 x1 x2 (ix4 (0 : Fin 1) i j h) = hidden x0 x1 x2 i j h := by
  rw [val_main_v12_apply, val_main_v11_apply, val_main_v8_apply, v6_at, v7_at, v10_at]
  rfl

/-! ## The logits -/

theorem v13_at (i j : Fin 512) (c : Fin 2) :
    val_main_v13 (F := Ideal) x0 x1 x2 x3 (ix4 (0 : Fin 1) i j c)
      = ∑ h : Fin 1024, hidden x0 x1 x2 i j h * x3 (ix2 c h) := by
  rw [val_main_v13_apply]
  refine Finset.sum_congr rfl fun h _ => ?_
  have e1 : lidx_main_v13 (ix4 (0 : Fin 1) i j c) h = ix4 (0 : Fin 1) i j h := by
    funext a; match a with | ⟨0, _⟩ => rfl | ⟨1, _⟩ => rfl | ⟨2, _⟩ => rfl | ⟨3, _⟩ => rfl
  have e2 : ridx_main_v13 (ix4 (0 : Fin 1) i j c) h = ix2 c h := by
    funext a; match a with | ⟨0, _⟩ => rfl | ⟨1, _⟩ => rfl
  rw [e1, e2, v12_at]

theorem v15_at (i j : Fin 512) (c : Fin 2) :
    val_main_v15 (F := Ideal) x4 (ix4 (0 : Fin 1) i j c) = x4 (ix1 c) := by
  rw [val_main_v15_apply, val_main_v14_apply]
  have e : idx_main_v14 (idx_main_v15 (ix4 (0 : Fin 1) i j c)) = ix1 c := by
    funext a; match a with | ⟨0, _⟩ => rfl
  rw [e]

theorem v16_at (i j : Fin 512) (c : Fin 2) :
    val_main_v16 (F := Ideal) x0 x1 x2 x3 x4 (ix4 (0 : Fin 1) i j c) = logit x0 x1 x2 x3 x4 i j c := by
  rw [val_main_v16_apply, v13_at, v15_at]
  rfl

/-! ## The result -/

/-- The reference's last operation, as a function of the five argument arrays, is `Gref`. -/
theorem ref_eq : val_main_v20 (F := Ideal) x0 x1 x2 x3 x4 = Gref x0 x1 x2 x3 x4 := by
  funext idx
  obtain ⟨a, i, j, c, rfl⟩ : ∃ (a : Fin 1) (i j : Fin 512) (c : Fin 2), idx = ix4 a i j c :=
    ⟨idx 0, idx 1, idx 2, idx 3, eq_ix4 idx⟩
  obtain rfl : a = 0 := Subsingleton.elim _ _
  rw [Gref_apply, val_main_v20_apply, val_main_v19_apply, val_main_cst_apply, val_main_v18_apply, val_main_v17_apply]
  have e : idx_main_v17 (ix4 (0 : Fin 1) i j c) = ix4 (0 : Fin 1) j i c := by
    funext a; match a with | ⟨0, _⟩ => rfl | ⟨1, _⟩ => rfl | ⟨2, _⟩ => rfl | ⟨3, _⟩ => rfl
  rw [e, v16_at, v16_at, Ideal.ofBits_def, ofBits_two]
  rfl

/-! ## The run, and the frame claim -/

/-- From any memory with zero counters every weakly fair execution of the reference terminates with its result at
    `Gref` of the five argument arrays as they were at the start, and those arrays unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v20)
          = Gref (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v20_eq (F := Ideal) _ _ _ _ _).trans (ref_eq _ _ _ _ _)), (h c).2⟩)
    (Cert.ReferenceIdeal.Value.run (F := Ideal) m' ρ')

/-- The reference runs and leaves its arguments unchanged: the run's second half. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/- The proof of `Cert.Claim`: the three frame claims, the (empty) idealization ledger, and the algebraic claim between
   the kernel's program and the reference, both read at the extended reals.

   Both programs compute, from tokens x : [1, 512, 1024], weights W1 : [1024, 2048], W2 : [2, 1024] and biases b1, b2,
   a two-class score for every pair of tokens,

     logit[i, j, c] = Σ_h tanh (a[j, h] + b[i, h] + b1[h]) · W2[c, h] + b2[c],
     a[l, o] = Σ_h x[0, l, h] · W1[o, h],     b[l, o] = Σ_h x[0, l, h] · W1[o, 1024 + h],

   and return its symmetrization, (logit[i, j, c] + logit[j, i, c]) / 2, at [0, i, j, c].

   The reference does so with whole-array operations: two contractions with the two column halves of W1, broadcasts,
   the hyperbolic tangent, a contraction with W2, the sum with the transpose and a division by 2
   (Proof/RefSpec.lean states that function, Proof/RefIsSpec.lean proves the reference's run ends at it).
   The kernel's program takes both projections from one product of x with the two halves of W1 stacked; for each pair
   and class it accumulates the sum over h in eight consecutive tiles of 128 columns, starting from zero, adding under
   the hyperbolic tangent the row token's projection first and the column token's second; it adds b2, adds the
   transpose, and multiplies by 0.5 (Proof/KerSpec.lean states that function, Proof/KI/Assemble.lean proves the
   kernel's run ends at it).

   On the extended reals the two functions are equal (Proof/Bridge.lean): the projections are the same sums; the
   accumulator after eight tiles is the sum of the eight tiles, and a sum over 1024 columns taken in eight consecutive
   blocks of 128 is the sum over all of them, because addition is associative and commutative on every extended real;
   the order of the two projections under the hyperbolic tangent does not matter, by commutativity; the pattern of 0.5
   denotes 1/2 and the pattern of 2.0 denotes 2, and division by 2 is multiplication by 1/2 at the infinities too.
   No finiteness of the inputs is used.

   Each program leaves its five arguments unchanged: no host operation writes an argument, and the one argument a
   region holds in a window is held in an input window, which is never written back. -/
import proofs.«166932_j51814485459081_1_alg».proof.Defs
import proofs.«166932_j51814485459081_1_alg».proof.Proof.Gen.Kernel
import proofs.«166932_j51814485459081_1_alg».proof.Proof.Gen.KernelIdeal
import proofs.«166932_j51814485459081_1_alg».proof.Proof.Gen.ReferenceIdeal
import proofs.«166932_j51814485459081_1_alg».proof.Proof.Gen.Pre_finite_inputs
import proofs.«166932_j51814485459081_1_alg».proof.Proof.K.ArgsKept
import proofs.«166932_j51814485459081_1_alg».proof.Proof.KI.Assemble
import proofs.«166932_j51814485459081_1_alg».proof.Proof.RefIsSpec

noncomputable section

namespace Cert.Proof

open Idealize.ShloMosaic Idealize.SL.Sem

/-- The kernel's program as printed runs and leaves its arguments unchanged. -/
theorem frame_k : Cert.frame_Kernel := fun m ρ _ => Cert.Kernel.Hand.frame (F := Bits) m ρ

/-- The kernel's program read at the extended reals runs and leaves its arguments unchanged. -/
theorem frame_ki : Cert.frame_KernelIdeal := fun m ρ _ => Cert.KernelIdeal.Hand.frame (F := Ideal) m ρ

/-- At the extended reals, from memories that agree on the five arguments, the kernel's program ends with its
    result at `Gker` of the arguments and the reference with its result at `Gref` of the same arguments; the two
    functions are equal, and both programs leave the arguments unchanged. -/
theorem algebraic : Cert.algebraic_KernelIdeal_ReferenceIdeal := by
  intro m ρ m' ρ' _ hagree
  refine ⟨fun c => Cert.KerSide.Gker
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.ker_run m ρ, ?_⟩
  refine (θ_run Cert.ReferenceIdeal.defs _ _).mono (fun _ h c => ⟨(h c).1.trans ?_, (h c).2⟩)
    (Cert.RefSide.ref_run m' ρ')
  rw [(hagree c).1, (hagree c).2.1, (hagree c).2.2.1, (hagree c).2.2.2.1, (hagree c).2.2.2.2]
  exact (Cert.KerSide.Gker_eq_Gref _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
